-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16x65 : Shape := ⟨3, ![32768, 16, 65]⟩
abbrev S3x64 : Shape := ⟨2, ![3, 64]⟩
abbrev S3x1 : Shape := ⟨2, ![3, 1]⟩
abbrev S3 : Shape := ⟨1, ![3]⟩
abbrev S1x1 : Shape := ⟨2, ![1, 1]⟩
abbrev S1 : Shape := ⟨1, ![1]⟩
abbrev S_ : Shape := ⟨0, ![]⟩

class Facts : Prop where
  bcast_S_S32768x16x65 : S_.BroadcastsInDim S32768x16x65 (![] : Fin 0 → Fin S32768x16x65.rank)
  reducesTo_S32768x16x65_S_d0_1_2 : S32768x16x65.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S3x1 : S_.BroadcastsInDim S3x1 (![] : Fin 0 → Fin S3x1.rank)
  reducesTo_S3x1_S_d0_1 : S3x1.ReducesTo [0, 1] S_
  bcast_S_S3 : S_.BroadcastsInDim S3 (![] : Fin 0 → Fin S3.rank)
  reducesTo_S3_S_d0 : S3.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S3 .f32) (main_arg5 : FVec F S1x1 .f32) (main_arg6 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32768x16x65 .f32) (main_arg1 : FVec F S3x64 .f32) (main_arg2 : FVec F S3x1 .f32) (main_arg3 : FVec F S3 .f32) (main_arg4 : FVec F S3 .f32) (main_arg5 : FVec F S1x1 .f32) (main_arg6 : FVec F S1 .f32) : IVec S_ 1 :=
  let main_v0 : FVec F S32768x16x65 .f32 := Host.absf main_arg0
  let main_cst : FVec F S_ .f32 := constant S_ .f32 0x7F800000#32
  let main_v1 : FVec F S32768x16x65 .f32 := broadcastInDim S32768x16x65 ![] bcast_S_S32768x16x65 main_cst
  let main_v2 : IVec S32768x16x65 1 := cmpf .olt main_v0 main_v1
  let main_c : IVec S_ 1 := constantI S_ 1 1#1
  let main_v3 : IVec S_ 1 := (fun x v => Host.reduce IntOp.andi x v reducesTo_S32768x16x65_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S3x1 .f32 := Host.absf main_arg2
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_v13 main_v16
-- ==== Kernel.lean ====
abbrev S32768x16x65 : Shape := ⟨3, ![32768, 16, 65]⟩
abbrev S3x64 : Shape := ⟨2, ![3, 64]⟩
abbrev S3x1 : Shape := ⟨2, ![3, 1]⟩
abbrev S3 : Shape := ⟨1, ![3]⟩
abbrev S1x1 : Shape := ⟨2, ![1, 1]⟩
abbrev S1 : Shape := ⟨1, ![1]⟩
abbrev S524288x65 : Shape := ⟨2, ![524288, 65]⟩
abbrev S_ : Shape := ⟨0, ![]⟩
abbrev S1x3 : Shape := ⟨2, ![1, 3]⟩
abbrev S64x3 : Shape := ⟨2, ![64, 3]⟩
abbrev S65x3 : Shape := ⟨2, ![65, 3]⟩
abbrev S524288 : Shape := ⟨1, ![524288]⟩
abbrev S8192x65 : Shape := ⟨2, ![8192, 65]⟩
abbrev S8192 : Shape := ⟨1, ![8192]⟩
abbrev S8192x1 : Shape := ⟨2, ![8192, 1]⟩
abbrev S8192x3 : Shape := ⟨2, ![8192, 3]⟩
abbrev S3x8192 : Shape := ⟨2, ![3, 8192]⟩
abbrev S1x8192 : Shape := ⟨2, ![1, 8192]⟩
abbrev S2x8192 : Shape := ⟨2, ![2, 8192]⟩
abbrev S32768x16x1 : Shape := ⟨3, ![32768, 16, 1]⟩

abbrev nBuf : Space → Nat
  | .hbm => 43
  | .vmem => 10
  | .smem => 0
  | _ => 0

abbrev bufTy : (tb : Table) → Fin (tcTables nBuf tb) → BufTy
  | .hbm, ⟨0, _⟩ => ⟨S32768x16x65, .f32⟩
  | .hbm, ⟨1, _⟩ => ⟨S3x64, .f32⟩
  | .hbm, ⟨2, _⟩ => ⟨S3x1, .f32⟩
  | .hbm, ⟨3, _⟩ => ⟨S3, .f32⟩
  | .hbm, ⟨4, _⟩ => ⟨S3, .f32⟩
  | .hbm, ⟨5, _⟩ => ⟨S1x1, .f32⟩
  | .hbm, ⟨6, _⟩ => ⟨S1, .f32⟩
  | .hbm, ⟨7, _⟩ => ⟨S524288x65, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S3, .f32⟩
  | .hbm, ⟨17, _⟩ => ⟨S1x3, .f32⟩
  | .hbm, ⟨18, _⟩ => ⟨S64x3, .f32⟩
  | .hbm, ⟨19, _⟩ => ⟨S65x3, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S3, .f32⟩
  | .hbm, ⟨36, _⟩ => ⟨S1x3, .f32⟩
  | .hbm, ⟨37, _⟩ => ⟨S1x1, .f32⟩
  | .hbm, ⟨38, _⟩ => ⟨S1, .f32⟩
  | .hbm, ⟨39, _⟩ => ⟨S1x1, .f32⟩
  | .hbm, ⟨40, _⟩ => ⟨S1x1, .f32⟩
  | .hbm, ⟨41, _⟩ => ⟨S524288, .f32⟩
  | .hbm, ⟨42, _⟩ => ⟨S32768x16x1, .f32⟩
  | .local _ .vmem, ⟨0, _⟩ => ⟨S8192x65, .f32⟩
  | .local _ .vmem, ⟨1, _⟩ => ⟨S8192x65, .f32⟩
  | .local _ .vmem, ⟨2, _⟩ => ⟨S65x3, .f32⟩
  | .local _ .vmem, ⟨3, _⟩ => ⟨S1x3, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S8192, .f32⟩
  | .local _ .vmem, ⟨9, _⟩ => ⟨S8192, .f32⟩
  | _, _ => ⟨S32768x16x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768x16x65_S524288x65 : S32768x16x65.ShapeCasts S524288x65
  slices_S3x1_S1x1_0_0 : S3x1.Slices ![0, 0] S1x1
  shapeCasts_S1x1_S_ : S1x1.ShapeCasts S_
  slices_S3x1_S1x1_1_0 : S3x1.Slices ![1, 0] S1x1
  bcast_S_S1 : S_.BroadcastsInDim S1 (![] : Fin 0 → Fin S1.rank)
  concatenates_S1_S1_S1_S3_d0 : Shape.Concatenates [S1, S1, S1] S3 0
  shapeCasts_S3_S1x3 : S3.ShapeCasts S1x3
  transposes_S3x64_S64x3_1_0 : S3x64.Transposes [1, 0] S64x3
  concatenates_S1x3_S64x3_S65x3_d0 : Shape.Concatenates [S1x3, S64x3] S65x3 0
  slices_S3_S1_0 : S3.Slices ![0] S1
  shapeCasts_S1_S_ : S1.ShapeCasts S_
  slices_S3_S1_1 : S3.Slices ![1] S1
  slices_S3_S1_2 : S3.Slices ![2] S1
  slices_S3x1_S1x1_2_0 : S3x1.Slices ![2, 0] S1x1
  shapeCasts_S1_S1x1 : S1.ShapeCasts S1x1
  inb_S8192x65_S8192x65_0_0 : ∀ a, (![0, 0] : Fin 2 → Nat) a + S8192x65.size a ≤ S8192x65.size a
  h_S8192x65 : 0 < S8192x65.numel
  shapeCasts_S8192x65_S8192x65 : S8192x65.ShapeCasts S8192x65
  slices_S8192x65_o0_0_S8192x1 : S8192x65.Slices ![0, 0] S8192x1
  inb_S65x3_S65x3_0_0 : ∀ a, (![0, 0] : Fin 2 → Nat) a + S65x3.size a ≤ S65x3.size a
  h_S65x3 : 0 < S65x3.numel
  shapeCasts_S65x3_S65x3 : S65x3.ShapeCasts S65x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  transposes_S8192x3_p1_0_S3x8192 : S8192x3.Transposes [1, 0] S3x8192
  transposes_S8192x1_p1_0_S1x8192 : S8192x1.Transposes [1, 0] S1x8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S3x8192_o0_0_S2x8192 : S3x8192.Slices ![0, 0] S2x8192
  slices_S2x8192_o0_0_S1x8192 : S2x8192.Slices ![0, 0] S1x8192
  slices_S2x8192_o1_0_S1x8192 : S2x8192.Slices ![1, 0] S1x8192
  slices_S3x8192_o2_0_S1x8192 : S3x8192.Slices ![2, 0] S1x8192
  shapeCasts_S1x8192_S8192 : S1x8192.ShapeCasts S8192
  inb_S8192_S8192_0 : ∀ a, (![0] : Fin 1 → Nat) a + S8192.size a ≤ S8192.size a
  h_S8192 : 0 < S8192.numel
  shapeCasts_S524288_S32768x16x1 : S524288.ShapeCasts S32768x16x1
  dot_S8192x65_S65x3_S8192x3_1_0_0_1_n_n_wf : DotDims.WF S8192x65 S65x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x65.size a ≤ S524288x65.size a
  hwx0_0 : ∀ i : grid0.Coords, EltTy.bits .f32 = 32 ∨ (Rect.block (s := S524288x65) S8192x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x3.size a ≤ S65x3.size a
  hwx0_1 : ∀ i : grid0.Coords, EltTy.bits .f32 = 32 ∨ (Rect.block (s := S65x3) S65x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S524288.size a
  hwx0_7 : ∀ i : grid0.Coords, EltTy.bits .f32 = 32 ∨ (Rect.block (s := S524288) S8192.size (cc0_transform_7 i) (hinb0_7 i)).WholeWords (EltTy.packing .f32)

variable [Facts₀]

def dot_S8192x65_S65x3_S8192x3_1_0_0_1_n_n : DotDims S8192x65 S65x3 S8192x3 where
  lhsContracting := [1]
  rhsContracting := [0]
  lhsNonContracting := [0]
  rhsNonContracting := [1]
  lhsBatch := []
  rhsBatch := []
  wf := dot_S8192x65_S65x3_S8192x3_1_0_0_1_n_n_wf

abbrev win0_0 : Pipeline.Window sig grid0 :=
  Pipeline.Window.ofSpec (Memref.whole main_v0) S8192x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S65x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x16x65 : Shape := ⟨3, ![32768, 16, 65]⟩
abbrev S3x64 : Shape := ⟨2, ![3, 64]⟩
abbrev S3x1 : Shape := ⟨2, ![3, 1]⟩
abbrev S3 : Shape := ⟨1, ![3]⟩
abbrev S1x1 : Shape := ⟨2, ![1, 1]⟩
abbrev S1 : Shape := ⟨1, ![1]⟩
abbrev S32768x16x64 : Shape := ⟨3, ![32768, 16, 64]⟩
abbrev S524288x64 : Shape := ⟨2, ![524288, 64]⟩
abbrev S32768x16x1 : Shape := ⟨3, ![32768, 16, 1]⟩
abbrev S524288x1 : Shape := ⟨2, ![524288, 1]⟩
abbrev S64x3 : Shape := ⟨2, ![64, 3]⟩
abbrev S524288x3 : Shape := ⟨2, ![524288, 3]⟩
abbrev S1x3 : Shape := ⟨2, ![1, 3]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32768x16x65, .f32⟩
  | .hbm, ⟨1, _⟩ => ⟨S3x64, .f32⟩
  | .hbm, ⟨2, _⟩ => ⟨S3x1, .f32⟩
  | .hbm, ⟨3, _⟩ => ⟨S3, .f32⟩
  | .hbm, ⟨4, _⟩ => ⟨S3, .f32⟩
  | .hbm, ⟨5, _⟩ => ⟨S1x1, .f32⟩
  | .hbm, ⟨6, _⟩ => ⟨S1, .f32⟩
  | .hbm, ⟨7, _⟩ => ⟨S32768x16x64, .f32⟩
  | .hbm, ⟨8, _⟩ => ⟨S524288x64, .f32⟩
  | .hbm, ⟨9, _⟩ => ⟨S32768x16x1, .f32⟩
  | .hbm, ⟨10, _⟩ => ⟨S524288x1, .f32⟩
  | .hbm, ⟨11, _⟩ => ⟨S64x3, .f32⟩
  | .hbm, ⟨12, _⟩ => ⟨S524288x3, .f32⟩
  | .hbm, ⟨13, _⟩ => ⟨S1x3, .f32⟩
  | .hbm, ⟨14, _⟩ => ⟨S524288x3, .f32⟩
  | .hbm, ⟨15, _⟩ => ⟨S524288x3, .f32⟩
  | .hbm, ⟨16, _⟩ => ⟨S1x3, .f32⟩
  | .hbm, ⟨17, _⟩ => ⟨S524288x3, .f32⟩
  | .hbm, ⟨18, _⟩ => ⟨S1x3, .f32⟩
  | .hbm, ⟨19, _⟩ => ⟨S524288x3, .f32⟩
  | .hbm, ⟨20, _⟩ => ⟨S524288x3, .f32⟩
  | .hbm, ⟨21, _⟩ => ⟨S524288x1, .f32⟩
  | .hbm, ⟨22, _⟩ => ⟨S524288x1, .f32⟩
  | .hbm, ⟨23, _⟩ => ⟨S524288x1, .f32⟩
  | .hbm, ⟨24, _⟩ => ⟨S524288x1, .f32⟩
  | .hbm, ⟨25, _⟩ => ⟨S524288x1, .f32⟩
  | .hbm, ⟨26, _⟩ => ⟨S_, .f32⟩
  | .hbm, ⟨27, _⟩ => ⟨S524288x1, .f32⟩
  | .hbm, ⟨28, _⟩ => ⟨S524288x1, .f32⟩
  | .hbm, ⟨29, _⟩ => ⟨S_, .f32⟩
  | .hbm, ⟨30, _⟩ => ⟨S524288x1, .f32⟩
  | .hbm, ⟨31, _⟩ => ⟨S524288x1, .f32⟩
  | .hbm, ⟨32, _⟩ => ⟨S524288x1, .f32⟩
  | .hbm, ⟨33, _⟩ => ⟨S524288x1, .f32⟩
  | .hbm, ⟨34, _⟩ => ⟨S524288x1, .f32⟩
  | .hbm, ⟨35, _⟩ => ⟨S524288x1, .f32⟩
  | .hbm, ⟨36, _⟩ => ⟨S524288x1, .f32⟩
  | .hbm, ⟨37, _⟩ => ⟨S_, .f32⟩
  | .hbm, ⟨38, _⟩ => ⟨S524288x1, .f32⟩
  | .hbm, ⟨39, _⟩ => ⟨S524288x1, .f32⟩
  | .hbm, ⟨40, _⟩ => ⟨S_, .f32⟩
  | .hbm, ⟨41, _⟩ => ⟨S524288x1, .f32⟩
  | .hbm, ⟨42, _⟩ => ⟨S524288x1, .f32⟩
  | .hbm, ⟨43, _⟩ => ⟨S524288x1, .f32⟩
  | .hbm, ⟨44, _⟩ => ⟨S524288x1, .f32⟩
  | .hbm, ⟨45, _⟩ => ⟨S524288x1, .f32⟩
  | .hbm, ⟨46, _⟩ => ⟨S524288x1, .f32⟩
  | .hbm, ⟨47, _⟩ => ⟨S524288x1, .f32⟩
  | .hbm, ⟨48, _⟩ => ⟨S_, .f32⟩
  | .hbm, ⟨49, _⟩ => ⟨S524288x1, .f32⟩
  | .hbm, ⟨50, _⟩ => ⟨S524288x1, .f32⟩
  | .hbm, ⟨51, _⟩ => ⟨S524288x1, .f32⟩
  | .hbm, ⟨52, _⟩ => ⟨S524288x1, .f32⟩
  | .hbm, ⟨53, _⟩ => ⟨S524288x1, .f32⟩
  | .hbm, ⟨54, _⟩ => ⟨S_, .f32⟩
  | .hbm, ⟨55, _⟩ => ⟨S524288x1, .f32⟩
  | .hbm, ⟨56, _⟩ => ⟨S524288x1, .f32⟩
  | .hbm, ⟨57, _⟩ => ⟨S_, .f32⟩
  | .hbm, ⟨58, _⟩ => ⟨S524288x1, .f32⟩
  | .hbm, ⟨59, _⟩ => ⟨S524288x1, .f32⟩
  | .hbm, ⟨60, _⟩ => ⟨S32768x16x1, .f32⟩
  | _, _ => ⟨S32768x16x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  slices_S32768x16x65_S32768x16x64_0_0_1 : S32768x16x65.Slices ![0, 0, 1] S32768x16x64
  shapeCasts_S32768x16x64_S524288x64 : S32768x16x64.ShapeCasts S524288x64
  slices_S32768x16x65_S32768x16x1_0_0_0 : S32768x16x65.Slices ![0, 0, 0] S32768x16x1
  shapeCasts_S32768x16x1_S524288x1 : S32768x16x1.ShapeCasts S524288x1
  transposes_S3x64_S64x3_1_0 : S3x64.Transposes [1, 0] S64x3
  bcast_S3_S1x3_1 : S3.BroadcastsInDim S1x3 (![1] : Fin 1 → Fin S1x3.rank)
  bcast_S1x3_S524288x3_0_1 : S1x3.BroadcastsInDim S524288x3 (![0, 1] : Fin 2 → Fin S524288x3.rank)
  transposes_S3x1_S1x3_1_0 : S3x1.Transposes [1, 0] S1x3
  slices_S524288x3_S524288x1_0_0 : S524288x3.Slices ![0, 0] S524288x1
  bcast_S_S524288x1 : S_.BroadcastsInDim S524288x1 (![] : Fin 0 → Fin S524288x1.rank)
  slices_S524288x3_S524288x1_0_1 : S524288x3.Slices ![0, 1] S524288x1
  slices_S524288x3_S524288x1_0_2 : S524288x3.Slices ![0, 2] S524288x1
  shapeCasts_S1x1_S_ : S1x1.ShapeCasts S_
  shapeCasts_S1_S_ : S1.ShapeCasts S_
  shapeCasts_S524288x1_S32768x16x1 : S524288x1.ShapeCasts S32768x16x1
  dot_S524288x64_S64x3_S524288x3_1_0_0_1_n_n_wf : DotDims.WF S524288x64 S64x3 S524288x3 [1] [0] [0] [1] [] []
  dot_S524288x1_S1x3_S524288x3_1_0_0_1_n_n_wf : DotDims.WF S524288x1 S1x3 S524288x3 [1] [0] [0] [1] [] []

variable [Facts₀]

def dot_S524288x64_S64x3_S524288x3_1_0_0_1_n_n : DotDims S524288x64 S64x3 S524288x3 where
  lhsContracting := [1]
  rhsContracting := [0]
  lhsNonContracting := [0]
  rhsNonContracting := [1]
  lhsBatch := []
  rhsBatch := []
  wf := dot_S524288x64_S64x3_S524288x3_1_0_0_1_n_n_wf
def dot_S524288x1_S1x3_S524288x3_1_0_0_1_n_n : DotDims S524288x1 S1x3 S524288x3 where
  lhsContracting := [1]
  rhsContracting := [0]
  lhsNonContracting := [0]
  rhsNonContracting := [1]
  lhsBatch := []
  rhsBatch := []
  wf := dot_S524288x1_S1x3_S524288x3_1_0_0_1_n_n_wf

class Facts : Prop extends Facts₀ where

variable [Facts]
-- ==== Proof.KernelFrame.lean ====
/-
  The frame of the program: the host operations before the launch only write buffers of their own, the launch stages
  each operand's block, runs the body at each of the 64 grid points and writes the result block back, and the one host
  operation after it reshapes the result. At every point the body reads its seven input blocks, leaves them in place,
  and overwrites the whole output block with ONE function of the seven input blocks (the body's payload). Hence every
  execution terminates without a fault, the seven argument arrays end as they were given, and the result array holds,
  block by block, the payload of the input blocks.
-/
import proofs.«161490_j49933289783562_2_alg».proof.Proof.Gen.Kernel.Launch
import proofs.«161490_j49933289783562_2_alg».proof.Proof.Gen.Kernel.Skeleton
import proofs.«161490_j49933289783562_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- The buffer contents of core `c` when the launch is entered: the given memory after the host operations before it. -/
abbrev V0 (c : Dev nD) : Valuation τ sig (Elt F) := StableHlo.after (List.flatten [hostOps0]) (fun b => m (c, b))
/-- The same read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host operations, the launch, and the host operation after it, in this order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the launch touches only buffers the launch does not scope. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's operand arrays: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 0: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 1: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 2: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 3: it ends as given. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 4: it ends as given. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 6: it ends as given. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The operands' blocks -/

/-- Operand `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input operand's current staging buffer holds its block at every point, whether it was fetched there or is
    still there from an earlier point (its block index then has not moved), provided the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run whose end state has every operand array at what the launch leaves there and every other buffer as the
    last host operation leaves it: the seven argument arrays end as given. Argument 5 is itself an input operand of the
    launch (never written back); the other six are no operand and are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 5).trans (((dats 0 c).arrAt_in 5 rfl _).trans ((hA c 5).trans (V_main_arg5 m c))),
      ((h c).2 main_arg6 (Pipeline.mem_restRefs_of main_arg6 (by decide) (by decide))).trans (W_main_arg6 m dats c)⟩) h

/-! ## What the body reads and writes -/

abbrev rX : Rect S8192x65 := Rect.unit (s := S8192x65) ![0, 0] S8192x65.size inb_S8192x65_S8192x65_0_0
abbrev rW : Rect S65x3 := Rect.unit (s := S65x3) ![0, 0] S65x3.size inb_S65x3_S65x3_0_0
abbrev rB : Rect S1x3 := Rect.unit (s := S1x3) ![0, 0] S1x3.size inb_S1x3_S1x3_0_0
abbrev rS : Rect S1x1 := Rect.unit (s := S1x1) ![0, 0] S1x1.size inb_S1x1_S1x1_0_0
abbrev rO : Rect S8192 := Rect.unit (s := S8192) ![0] S8192.size inb_S8192_S8192_0

/-- The output buffer after the body: its one store, of the payload of the seven loaded blocks, over the whole buffer. -/
def out0_7 (x0 : Vec F S8192x65 .f32) (x1 : Vec F S65x3 .f32) (x2 : Vec F S1x3 .f32) (x3 x4 x5 x6 : Vec F S1x1 .f32) : Vec F S8192 .f32 :=
  View.canon [⟨rO, k0_pay1 (View.ld x0 rX) (View.ld x1 rW) (View.ld x2 rB) (View.ld x3 rS) (View.ld x4 rS) (View.ld x5 rS) (View.ld x6 rS)⟩]

/-- The one store covers the buffer. -/
theorem cover0_7 (p0 : Vec F S8192 .f32) (y : S8192.Idx) :
    ∃ pc ∈ ([⟨rO, p0⟩] : List (View.Piece (Elt F) S8192 .f32)), y ∈ pc.1.set :=
  View.cover_of_tiled [⟨rO, p0⟩] S8192.size (by rfl) y

/-! ## The body's triple -/

set_option maxHeartbeats 1000000 in
/-- The body on whole staging buffers, the seven inputs' at contents `x0 … x6` and the output's at anything, runs to
    its end with the inputs' as they were and the output's at `out0_7` of the inputs'. -/
theorem sound_kernel (c : Dev nD) (E : Set ℕ) (i : grid0.Coords)
    (arg1 : Memref sig .tc .vmem S8192x65 .f32) (harg1 : arg1.IsWhole) (arg2 : Memref sig .tc .vmem S65x3 .f32) (harg2 : arg2.IsWhole)
    (arg3 : Memref sig .tc .vmem S1x3 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S8192 .f32) (harg8 : arg8.IsWhole)
    (x0 : Vec F S8192x65 .f32) (x1 : Vec F S65x3 .f32) (x2 : Vec F S1x3 .f32) (x3 x4 x5 x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The launch's proof data -/

/-- On core `c`: the arrays as the launch finds them; after the body at point `t` each input's buffer at its block and
    the output's at `out0_7` of the input blocks; nothing else is used, nothing is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and its end state has
    every operand array of the launch at what the proof data computes and every other unscoped buffer as the last host
    operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates without a fault and the seven argument arrays end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.KernelIdealFrame.lean ====
/-
  The frame of the program: the host operations before the launch only write buffers of their own, the launch stages
  each operand's block, runs the body at each of the 64 grid points and writes the result block back, and the one host
  operation after it reshapes the result. At every point the body reads its seven input blocks, leaves them in place,
  and overwrites the whole output block with ONE function of the seven input blocks (the body's payload). Hence every
  execution terminates without a fault, the seven argument arrays end as they were given, and the result array holds,
  block by block, the payload of the input blocks.
-/
import proofs.«161490_j49933289783562_2_alg».proof.Proof.Gen.KernelIdeal.Launch
import proofs.«161490_j49933289783562_2_alg».proof.Proof.Gen.KernelIdeal.Skeleton
import proofs.«161490_j49933289783562_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- The buffer contents of core `c` when the launch is entered: the given memory after the host operations before it. -/
abbrev V0 (c : Dev nD) : Valuation τ sig (Elt F) := StableHlo.after (List.flatten [hostOps0]) (fun b => m (c, b))
/-- The same read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host operations, the launch, and the host operation after it, in this order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the launch touches only buffers the launch does not scope. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's operand arrays: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 0: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 1: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 2: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 3: it ends as given. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 4: it ends as given. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the launch writes argument 6: it ends as given. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The operands' blocks -/

/-- Operand `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input operand's current staging buffer holds its block at every point, whether it was fetched there or is
    still there from an earlier point (its block index then has not moved), provided the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run whose end state has every operand array at what the launch leaves there and every other buffer as the
    last host operation leaves it: the seven argument arrays end as given. Argument 5 is itself an input operand of the
    launch (never written back); the other six are no operand and are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 5).trans (((dats 0 c).arrAt_in 5 rfl _).trans ((hA c 5).trans (V_main_arg5 m c))),
      ((h c).2 main_arg6 (Pipeline.mem_restRefs_of main_arg6 (by decide) (by decide))).trans (W_main_arg6 m dats c)⟩) h

/-! ## What the body reads and writes -/

abbrev rX : Rect S8192x65 := Rect.unit (s := S8192x65) ![0, 0] S8192x65.size inb_S8192x65_S8192x65_0_0
abbrev rW : Rect S65x3 := Rect.unit (s := S65x3) ![0, 0] S65x3.size inb_S65x3_S65x3_0_0
abbrev rB : Rect S1x3 := Rect.unit (s := S1x3) ![0, 0] S1x3.size inb_S1x3_S1x3_0_0
abbrev rS : Rect S1x1 := Rect.unit (s := S1x1) ![0, 0] S1x1.size inb_S1x1_S1x1_0_0
abbrev rO : Rect S8192 := Rect.unit (s := S8192) ![0] S8192.size inb_S8192_S8192_0

/-- The output buffer after the body: its one store, of the payload of the seven loaded blocks, over the whole buffer. -/
def out0_7 (x0 : Vec F S8192x65 .f32) (x1 : Vec F S65x3 .f32) (x2 : Vec F S1x3 .f32) (x3 x4 x5 x6 : Vec F S1x1 .f32) : Vec F S8192 .f32 :=
  View.canon [⟨rO, k0_pay1 (View.ld x0 rX) (View.ld x1 rW) (View.ld x2 rB) (View.ld x3 rS) (View.ld x4 rS) (View.ld x5 rS) (View.ld x6 rS)⟩]

/-- The one store covers the buffer. -/
theorem cover0_7 (p0 : Vec F S8192 .f32) (y : S8192.Idx) :
    ∃ pc ∈ ([⟨rO, p0⟩] : List (View.Piece (Elt F) S8192 .f32)), y ∈ pc.1.set :=
  View.cover_of_tiled [⟨rO, p0⟩] S8192.size (by rfl) y

/-! ## The body's triple -/

set_option maxHeartbeats 1000000 in
/-- The body on whole staging buffers, the seven inputs' at contents `x0 … x6` and the output's at anything, runs to
    its end with the inputs' as they were and the output's at `out0_7` of the inputs'. -/
theorem sound_kernel (c : Dev nD) (E : Set ℕ) (i : grid0.Coords)
    (arg1 : Memref sig .tc .vmem S8192x65 .f32) (harg1 : arg1.IsWhole) (arg2 : Memref sig .tc .vmem S65x3 .f32) (harg2 : arg2.IsWhole)
    (arg3 : Memref sig .tc .vmem S1x3 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S8192 .f32) (harg8 : arg8.IsWhole)
    (x0 : Vec F S8192x65 .f32) (x1 : Vec F S65x3 .f32) (x2 : Vec F S1x3 .f32) (x3 x4 x5 x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The launch's proof data -/

/-- On core `c`: the arrays as the launch finds them; after the body at point `t` each input's buffer at its block and
    the output's at `out0_7` of the input blocks; nothing else is used, nothing is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and its end state has
    every operand array of the launch at what the proof data computes and every other unscoped buffer as the last host
    operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates without a fault and the seven argument arrays end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.LibUnitShapes.lean ====
/-
  Shapes with one element, and a three-operand host operation.

  The index type of a shape `[]`, `[1]` or `[1, 1]` has exactly one element, so a reshape or a broadcast OUT of such a
  shape reads its operand at that one index, whatever index it is read at.  A host operation of three operands leaves in
  its result buffer its function applied to the three operands' contents, each read at its own buffer.
-/
import Idealize.ShloMosaic.Lib.Pipeline.Value
import Idealize.ShloMosaic.Lib.ValueIdx
import Idealize.ShloMosaic.Lib.StableHlo.Run

noncomputable section

namespace Cert.Lib

open Idealize.ShloMosaic Idealize.ShloMosaic.ValueIdx Idealize.ShloMosaic.StableHlo

instance subsingleton_idx_nil : Subsingleton (⟨0, ![]⟩ : Shape).Idx := ⟨fun _ _ => funext fun d => d.elim0⟩

instance subsingleton_idx_1 : Subsingleton (⟨1, ![1]⟩ : Shape).Idx :=
  ⟨fun a b => funext fun d => match d with | ⟨0, _⟩ => Subsingleton.elim (α := Fin 1) (a 0) (b 0)⟩

instance subsingleton_idx_11 : Subsingleton (⟨2, ![1, 1]⟩ : Shape).Idx :=
  ⟨fun a b => funext fun d => match d with
    | ⟨0, _⟩ => Subsingleton.elim (α := Fin 1) (a 0) (b 0)
    | ⟨1, _⟩ => Subsingleton.elim (α := Fin 1) (a 1) (b 1)⟩

/-- A reshape of an array with one element reads that element. -/
theorem shapeCast_of_subsingleton {α : Type} {s t : Shape} [Subsingleton s.Idx] (x : s.Idx → α) (h : s.ShapeCasts t)
    (j : t.Idx) (k : s.Idx) : shapeCast t x h j = x k := by
  unfold shapeCast
  exact congrArg x (Subsingleton.elim _ _)

/-- A broadcast of an array with one element reads that element. -/
theorem broadcastInDim_of_subsingleton {α : Type} {s t : Shape} [Subsingleton s.Idx] (dims : Fin s.rank → Fin t.rank)
    (h : s.BroadcastsInDim t dims) (x : s.Idx → α) (j : t.Idx) (k : s.Idx) : broadcastInDim t dims h x j = x k := by
  unfold broadcastInDim
  exact congrArg x (Subsingleton.elim _ _)

section Nary3

variable {τ : Topo} {sig : RefSig} {Val : EltTy → Type}
variable {x a b y : Ref sig .tc}

/-- A host operation over a literal family of three operands: its result, with each operand's contents read at its own
    buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

end Cert.Lib

end
-- ==== Proof.LibLayoutReads.lean ====
/-
  Arrays laid side by side, cut, and re-shaped, read at an index given by coordinates.

  Three matrices with the same number of rows laid side by side form one wide matrix: column c of the wide matrix is
  column c of the first piece while c is below the first piece's width, then column c − n0 of the second, then column
  c − n0 − n1 of the third.  Three vectors laid end to end behave the same way along their one axis.

  A stack of P matrices of S rows each is, row-major, one matrix of P·S rows: row p·S + s of the flat matrix is row s of
  matrix p, in both directions of the re-shaping.  A cut along the last axis of a rank-3 array starting at column o reads
  column o + j of the source at column j.  A matrix (or a vector) that was padded only at the high end of its last axis
  still reads the original entries at the original coordinates.
-/
import Idealize.ShloMosaic.Lib.ValueIdx
import Idealize.ShloMosaic.Lib.ValueLayout
import Idealize.ShloMosaic.Lib.Pipeline.Value
import Idealize.ShloMosaic.Lib.KernelVsHost

namespace Cert.Lib

open Idealize.ShloMosaic Idealize.ShloMosaic.ValueIdx

variable {α : Type}

/-! ## Three matrices side by side -/

/-- The wide matrix at a column of the first piece. -/
theorem concat3_cols_fst {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n0) (c : Fin N) (hc : c.val = q.val) :
    concatenate ⟨2, ![A, N]⟩ 1 [⟨⟨2, ![A, n0]⟩, x0⟩, ⟨⟨2, ![A, n1]⟩, x1⟩, ⟨⟨2, ![A, n2]⟩, x2⟩] h (ix2 d c) = x0 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 0 (by simp) ⟨2, ![A, n0]⟩ x0 rfl rfl 0 rfl (ix2 d q)
    (fun b => match b with
      | ⟨0, _⟩ => fun _ => rfl
      | ⟨1, _⟩ => fun hb => absurd rfl hb)
    (by show 0 + q.val = c.val; omega)

/-- The wide matrix at a column of the second piece. -/
theorem concat3_cols_snd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n1) (c : Fin N) (hc : c.val = n0 + q.val) :
    concatenate ⟨2, ![A, N]⟩ 1 [⟨⟨2, ![A, n0]⟩, x0⟩, ⟨⟨2, ![A, n1]⟩, x1⟩, ⟨⟨2, ![A, n2]⟩, x2⟩] h (ix2 d c) = x1 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 1 (by simp) ⟨2, ![A, n1]⟩ x1 rfl rfl (n0 + 0) rfl (ix2 d q)
    (fun b => match b with
      | ⟨0, _⟩ => fun _ => rfl
      | ⟨1, _⟩ => fun hb => absurd rfl hb)
    (by show n0 + 0 + q.val = c.val; omega)

/-- The wide matrix at a column of the third piece. -/
theorem concat3_cols_thd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n2) (c : Fin N) (hc : c.val = n0 + n1 + q.val) :
    concatenate ⟨2, ![A, N]⟩ 1 [⟨⟨2, ![A, n0]⟩, x0⟩, ⟨⟨2, ![A, n1]⟩, x1⟩, ⟨⟨2, ![A, n2]⟩, x2⟩] h (ix2 d c) = x2 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 2 (by simp) ⟨2, ![A, n2]⟩ x2 rfl rfl (n0 + (n1 + 0)) rfl (ix2 d q)
    (fun b => match b with
      | ⟨0, _⟩ => fun _ => rfl
      | ⟨1, _⟩ => fun hb => absurd rfl hb)
    (by show n0 + (n1 + 0) + q.val = c.val; omega)

/-! ## Three vectors end to end -/

/-- The long vector at an entry of the first piece. -/
theorem concat3_vec_fst {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n0) (c : Fin N) (hc : c.val = q.val) :
    concatenate ⟨1, ![N]⟩ 0 [⟨⟨1, ![n0]⟩, x0⟩, ⟨⟨1, ![n1]⟩, x1⟩, ⟨⟨1, ![n2]⟩, x2⟩] h (ix1 c) = x0 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 0 (by simp) ⟨1, ![n0]⟩ x0 rfl rfl 0 rfl (ix1 q)
    (fun b => match b with
      | ⟨0, _⟩ => fun hb => absurd rfl hb)
    (by show 0 + q.val = c.val; omega)

/-- The long vector at an entry of the second piece. -/
theorem concat3_vec_snd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n1) (c : Fin N) (hc : c.val = n0 + q.val) :
    concatenate ⟨1, ![N]⟩ 0 [⟨⟨1, ![n0]⟩, x0⟩, ⟨⟨1, ![n1]⟩, x1⟩, ⟨⟨1, ![n2]⟩, x2⟩] h (ix1 c) = x1 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 1 (by simp) ⟨1, ![n1]⟩ x1 rfl rfl (n0 + 0) rfl (ix1 q)
    (fun b => match b with
      | ⟨0, _⟩ => fun hb => absurd rfl hb)
    (by show n0 + 0 + q.val = c.val; omega)

/-- The long vector at an entry of the third piece. -/
theorem concat3_vec_thd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n2) (c : Fin N) (hc : c.val = n0 + n1 + q.val) :
    concatenate ⟨1, ![N]⟩ 0 [⟨⟨1, ![n0]⟩, x0⟩, ⟨⟨1, ![n1]⟩, x1⟩, ⟨⟨1, ![n2]⟩, x2⟩] h (ix1 c) = x2 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 2 (by simp) ⟨1, ![n2]⟩ x2 rfl rfl (n0 + (n1 + 0)) rfl (ix1 q)
    (fun b => match b with
      | ⟨0, _⟩ => fun hb => absurd rfl hb)
    (by show n0 + (n1 + 0) + q.val = c.val; omega)

/-! ## Padding at the high end of the last axis, read inside the original -/

/-- A matrix padded with extra columns on the right reads its own entry at a column it already had. -/
theorem pad_cols_inside {A C C' hc : Nat} (x : (⟨2, ![A, C]⟩ : Shape).Idx → α) {u : Shape} (v : u.Idx → α)
    (h : (⟨2, ![A, C]⟩ : Shape).Pads ![0, 0] ![0, hc] ![0, 0] ⟨2, ![A, C']⟩) (hu : 0 < u.numel)
    (p : Fin A) (n : Fin C) (q : Fin C') (hq : q.val = n.val) :
    pad ⟨2, ![A, C']⟩ ![0, 0] ![0, hc] ![0, 0] x v h hu (ix2 p q) = x (ix2 p n) :=
  pad_apply_of_inside _ _ _ x v h hu (ix2 p q) (ix2 p n) fun a => by
    match a with
    | ⟨0, _⟩ => show p.val = 0 + p.val * (0 + 1); omega
    | ⟨1, _⟩ => show q.val = 0 + n.val * (0 + 1); omega

/-- A vector padded with extra entries at its end reads its own entry at a position it already had. -/
theorem pad_vec_inside {C C' hc : Nat} (x : (⟨1, ![C]⟩ : Shape).Idx → α) {u : Shape} (v : u.Idx → α)
    (h : (⟨1, ![C]⟩ : Shape).Pads ![0] ![hc] ![0] ⟨1, ![C']⟩) (hu : 0 < u.numel)
    (n : Fin C) (q : Fin C') (hq : q.val = n.val) :
    pad ⟨1, ![C']⟩ ![0] ![hc] ![0] x v h hu (ix1 q) = x (ix1 n) :=
  pad_apply_of_inside _ _ _ x v h hu (ix1 q) (ix1 n) fun a => by
    match a with
    | ⟨0, _⟩ => show q.val = 0 + n.val * (0 + 1); omega

/-! ## A stack of matrices and the one tall matrix with the same rows -/

/-- The stack `[P, S, K]` flattened to `[R, K]` reads, at row `r = p·S + s`, row `s` of matrix `p`. -/
theorem shapeCast_merge_rows_apply {P S K R : Nat} (x : (⟨3, ![P, S, K]⟩ : Shape).Idx → α)
    (h : (⟨3, ![P, S, K]⟩ : Shape).ShapeCasts ⟨2, ![R, K]⟩) (p : Fin P) (s : Fin S) (d : Fin K) (r : Fin R)
    (hr : r.val = p.val * S + s.val) :
    shapeCast ⟨2, ![R, K]⟩ x h (ix2 r d) = x (ix3 p s d) :=
  shapeCast_apply x h _ _ (by
    rw [Shape.rowMajor_val_three, Shape.rowMajor_val_two]
    show (p.val * S + s.val) * K + d.val = r.val * K + d.val
    rw [hr])

/-- The tall matrix `[R, C]` cut into a stack `[P, S, C]` reads, at row `s` of matrix `p`, its row `r = p·S + s`. -/
theorem shapeCast_split_rows_apply {P S C R : Nat} (x : (⟨2, ![R, C]⟩ : Shape).Idx → α)
    (h : (⟨2, ![R, C]⟩ : Shape).ShapeCasts ⟨3, ![P, S, C]⟩) (p : Fin P) (s : Fin S) (c : Fin C) (r : Fin R)
    (hr : r.val = p.val * S + s.val) :
    shapeCast ⟨3, ![P, S, C]⟩ x h (ix3 p s c) = x (ix2 r c) :=
  shapeCast_apply x h _ _ (by
    rw [Shape.rowMajor_val_two, Shape.rowMajor_val_three]
    show r.val * C + c.val = (p.val * S + s.val) * C + c.val
    rw [hr])

/-! ## A cut along the last axis of a rank-3 array -/

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib
-- ==== Proof.Prefix.lean ====
/-
  What the host operations before the launch hand to it.

  From the seven argument arrays they build: the input flattened to 524288 rows of 65 columns (row 16 b + n is entry
  (b, n)); the 65 × 3 weight matrix whose first row is (W_hh[0,0], W_hh[1,0], 0) and whose row k + 1 is column k of
  W_ih; the fused bias row (b_ih[0] + b_hh[0], b_ih[1] + b_hh[1], b_ih[2]); and the scalars W_hh[2,0], b_hh[2] and
  b_out[0] as 1 × 1 arrays.  Each is read here at an index, from the argument arrays.
-/
import proofs.«161490_j49933289783562_2_alg».proof.Proof.KernelIdealFrame
import proofs.«161490_j49933289783562_2_alg».proof.Proof.LibUnitShapes
import proofs.«161490_j49933289783562_2_alg».proof.Proof.LibLayoutReads
import Idealize.ShloMosaic.Lib.ValueLayout
import Idealize.ShloMosaic.PureOps.Ideal.Laws

noncomputable section

namespace Cert.KernelIdeal.Pre

open Cert.KernelIdeal Cert.KernelIdeal.Gen Cert.KernelIdeal.Frm Idealize.ShloMosaic Idealize.ShloMosaic.TcCoe
open Idealize.ShloMosaic.ValueIdx Idealize.ShloMosaic.StableHlo Idealize.SL.Sem Cert.Lib

/-- Rewrites the contents of one buffer after a list of host operations, operation by operation, into the
    operations' functions applied to the argument buffers' contents. -/
local macro "host_results" : tactic =>
  `(tactic| (simp only [StableHlo.after_cons, StableHlo.after_nil]
             repeat (first
               | rw [StableHlo.nullary_result] | rw [StableHlo.unary_result] | rw [StableHlo.binary_result]
               | rw [StableHlo.reshape_result] | rw [Cert.Lib.nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## The arrays as functions of the arguments -/

/-- The input flattened to rows. -/
def rows (a0 : FVec Ideal S32768x16x65 .f32) : FVec Ideal S524288x65 .f32 :=
  shapeCast S524288x65 a0 shapeCasts_S32768x16x65_S524288x65

/-- The first row of the weight matrix, as a vector: (W_hh[0,0], W_hh[1,0], 0). -/
def w0vec (a2 : FVec Ideal S3x1 .f32) : FVec Ideal S3 .f32 :=
  concatenate S3 0
    [⟨S1, broadcastInDim S1 ![] bcast_S_S1 (shapeCast S_ (extractStridedSlice S1x1 ![0, 0] a2 slices_S3x1_S1x1_0_0) shapeCasts_S1x1_S_)⟩,
     ⟨S1, broadcastInDim S1 ![] bcast_S_S1 (shapeCast S_ (extractStridedSlice S1x1 ![1, 0] a2 slices_S3x1_S1x1_1_0) shapeCasts_S1x1_S_)⟩,
     ⟨S1, broadcastInDim S1 ![] bcast_S_S1 (constant (F := Ideal) S_ .f32 0x00000000#32)⟩]
    concatenates_S1_S1_S1_S3_d0

/-- The 65 × 3 weight matrix: that row on top of the transpose of W_ih. -/
def w65 (a1 : FVec Ideal S3x64 .f32) (a2 : FVec Ideal S3x1 .f32) : FVec Ideal S65x3 .f32 :=
  concatenate S65x3 0
    [⟨S1x3, shapeCast S1x3 (w0vec a2) shapeCasts_S3_S1x3⟩,
     ⟨S64x3, transpose S64x3 [1, 0] a1 transposes_S3x64_S64x3_1_0⟩]
    concatenates_S1x3_S64x3_S65x3_d0

/-- The fused bias, as a vector: (b_ih[0] + b_hh[0], b_ih[1] + b_hh[1], b_ih[2]). -/
def b3vec (a3 a4 : FVec Ideal S3 .f32) : FVec Ideal S3 .f32 :=
  concatenate S3 0
    [⟨S1, broadcastInDim S1 ![] bcast_S_S1
        (addf (shapeCast S_ (extractStridedSlice S1 ![0] a3 slices_S3_S1_0) shapeCasts_S1_S_)
              (shapeCast S_ (extractStridedSlice S1 ![0] a4 slices_S3_S1_0) shapeCasts_S1_S_))⟩,
     ⟨S1, broadcastInDim S1 ![] bcast_S_S1
        (addf (shapeCast S_ (extractStridedSlice S1 ![1] a3 slices_S3_S1_1) shapeCasts_S1_S_)
              (shapeCast S_ (extractStridedSlice S1 ![1] a4 slices_S3_S1_1) shapeCasts_S1_S_))⟩,
     ⟨S1, broadcastInDim S1 ![] bcast_S_S1 (shapeCast S_ (extractStridedSlice S1 ![2] a3 slices_S3_S1_2) shapeCasts_S1_S_)⟩]
    concatenates_S1_S1_S1_S3_d0

/-- The fused bias row. -/
def bias3 (a3 a4 : FVec Ideal S3 .f32) : FVec Ideal S1x3 .f32 := shapeCast S1x3 (b3vec a3 a4) shapeCasts_S3_S1x3

/-- The candidate gate's recurrent weight, bias, and the read-out bias, as 1 × 1 arrays. -/
def whhn (a2 : FVec Ideal S3x1 .f32) : FVec Ideal S1x1 .f32 := extractStridedSlice S1x1 ![2, 0] a2 slices_S3x1_S1x1_2_0
def bhhn (a4 : FVec Ideal S3 .f32) : FVec Ideal S1x1 .f32 :=
  shapeCast S1x1 (extractStridedSlice S1 ![2] a4 slices_S3_S1_2) shapeCasts_S1_S1x1
def bout (a6 : FVec Ideal S1 .f32) : FVec Ideal S1x1 .f32 := shapeCast S1x1 a6 shapeCasts_S1_S1x1

variable (m : (ℓ : Loc nD τ sig) → Buf (Elt Ideal) ℓ) (c : Dev nD)

theorem V_v0 : (V m c main_v0 : FVec Ideal S524288x65 .f32) = rows (m ((c : Thread nD τ).loc main_arg0)) := by
  dsimp only [V, V0]
  simp only [hostOps0, List.flatten_cons, List.flatten_nil, List.append_nil]
  host_results
  rfl

theorem V_v11 : (V m c main_v11 : FVec Ideal S65x3 .f32)
    = w65 (m ((c : Thread nD τ).loc main_arg1)) (m ((c : Thread nD τ).loc main_arg2)) := by
  dsimp only [V, V0]
  simp only [hostOps0, List.flatten_cons, List.flatten_nil, List.append_nil]
  host_results
  rfl

set_option maxHeartbeats 2000000 in
theorem V_v28 : (V m c main_v28 : FVec Ideal S1x3 .f32)
    = bias3 (m ((c : Thread nD τ).loc main_arg3)) (m ((c : Thread nD τ).loc main_arg4)) := by
  dsimp only [V, V0]
  simp only [hostOps0, List.flatten_cons, List.flatten_nil, List.append_nil]
  host_results
  rfl

theorem V_v29 : (V m c main_v29 : FVec Ideal S1x1 .f32) = whhn (m ((c : Thread nD τ).loc main_arg2)) := by
  dsimp only [V, V0]
  simp only [hostOps0, List.flatten_cons, List.flatten_nil, List.append_nil]
  host_results
  rfl

theorem V_v31 : (V m c main_v31 : FVec Ideal S1x1 .f32) = bhhn (m ((c : Thread nD τ).loc main_arg4)) := by
  dsimp only [V, V0]
  simp only [hostOps0, List.flatten_cons, List.flatten_nil, List.append_nil]
  host_results
  rfl

theorem V_v32 : (V m c main_v32 : FVec Ideal S1x1 .f32) = bout (m ((c : Thread nD τ).loc main_arg6)) := by
  dsimp only [V, V0]
  simp only [hostOps0, List.flatten_cons, List.flatten_nil, List.append_nil]
  host_results
  rfl

/-! ## Read at an index -/

section Reads

variable (a0 : FVec Ideal S32768x16x65 .f32) (a1 : FVec Ideal S3x64 .f32) (a2 : FVec Ideal S3x1 .f32)
  (a3 a4 : FVec Ideal S3 .f32) (a6 : FVec Ideal S1 .f32)

/-- Row `r` of the flattened input is entry `(r / 16, r % 16)`. -/
theorem rows_at (r : Fin 524288) (k : Fin 65) :
    rows a0 (ix2 r k)
      = a0 (ix3 (⟨r.val / 16, by have := r.isLt; omega⟩ : Fin 32768) (⟨r.val % 16, by omega⟩ : Fin 16) k) :=
  shapeCast_merge_rows_apply a0 shapeCasts_S32768x16x65_S524288x65 _ _ k r (by show r.val = r.val / 16 * 16 + r.val % 16; omega)

theorem slice_vec (a : FVec Ideal S3 .f32) (o : Fin 3) (h : S3.Slices ![o.val] S1) :
    extractStridedSlice S1 ![o.val] a h (ix1 (0 : Fin 1)) = a (ix1 o) :=
  extractStridedSlice_apply ![o.val] a h (ix1 (0 : Fin 1)) (ix1 o) (fun ax => match ax with | ⟨0, _⟩ => rfl)

theorem w0vec_0 : w0vec a2 (ix1 (0 : Fin 3)) = a2 (ix2 (0 : Fin 3) (0 : Fin 1)) := by
  unfold w0vec
  refine (concat3_vec_fst _ _ _ concatenates_S1_S1_S1_S3_d0 (0 : Fin 1) (0 : Fin 3) rfl).trans ?_
  refine (broadcastInDim_of_subsingleton _ _ _ _ ix0).trans ?_
  refine (shapeCast_of_subsingleton _ _ _ (ix2 (0 : Fin 1) (0 : Fin 1))).trans ?_
  exact slice2_axis0_apply 0 a2 _ (0 : Fin 1) (0 : Fin 1) (0 : Fin 3) rfl

theorem w0vec_1 : w0vec a2 (ix1 (1 : Fin 3)) = a2 (ix2 (1 : Fin 3) (0 : Fin 1)) := by
  unfold w0vec
  refine (concat3_vec_snd _ _ _ concatenates_S1_S1_S1_S3_d0 (0 : Fin 1) (1 : Fin 3) rfl).trans ?_
  refine (broadcastInDim_of_subsingleton _ _ _ _ ix0).trans ?_
  refine (shapeCast_of_subsingleton _ _ _ (ix2 (0 : Fin 1) (0 : Fin 1))).trans ?_
  exact slice2_axis0_apply 1 a2 _ (0 : Fin 1) (0 : Fin 1) (1 : Fin 3) rfl

theorem w0vec_2 : w0vec a2 (ix1 (2 : Fin 3)) = 0 := by
  unfold w0vec
  refine (concat3_vec_thd _ _ _ concatenates_S1_S1_S1_S3_d0 (0 : Fin 1) (2 : Fin 3) rfl).trans ?_
  refine (broadcastInDim_of_subsingleton _ _ _ _ ix0).trans ?_
  exact Ideal.ofBits_zero_f32

/-- The first row of the weight matrix. -/
theorem w65_row0 (j : Fin 3) : w65 a1 a2 (ix2 (0 : Fin 65) j) = w0vec a2 (ix1 j) := by
  unfold w65
  refine (concatenate_pair_apply_left (t := S65x3) (s₁ := S1x3) (s₂ := S64x3) (0 : Fin 2) _ _
    concatenates_S1x3_S64x3_S65x3_d0 (ix2 (0 : Fin 65) j) rfl
    (ix2 (0 : Fin 1) j) (fun b => match b with | ⟨0, _⟩ => rfl | ⟨1, _⟩ => rfl)).trans ?_
  exact shapeCast_a_1a_apply _ _ (0 : Fin 1) j

/-- Row `k + 1` of the weight matrix is column `k` of W_ih. -/
theorem w65_succ (k : Fin 64) (j : Fin 3) : w65 a1 a2 (ix2 k.succ j) = a1 (ix2 j k) := by
  unfold w65
  refine (concatenate_pair_apply_right (t := S65x3) (s₁ := S1x3) (s₂ := S64x3) (0 : Fin 2) _ _
    concatenates_S1x3_S64x3_S65x3_d0 (ix2 (k.succ : Fin 65) j) rfl rfl
    (ix2 k j) (fun b => match b with | ⟨0, _⟩ => fun hb => absurd rfl hb | ⟨1, _⟩ => fun _ => rfl)
    (by show k.val + 1 = k.succ.val; rfl)).trans ?_
  exact transpose_ix2_apply a1 _ k j

theorem bias3_at (j : Fin 3) : bias3 a3 a4 (ix2 (0 : Fin 1) j) = b3vec a3 a4 (ix1 j) :=
  shapeCast_a_1a_apply _ _ (0 : Fin 1) j

theorem b3vec_0 : b3vec a3 a4 (ix1 (0 : Fin 3)) = a3 (ix1 (0 : Fin 3)) + a4 (ix1 (0 : Fin 3)) := by
  unfold b3vec
  refine (concat3_vec_fst _ _ _ concatenates_S1_S1_S1_S3_d0 (0 : Fin 1) (0 : Fin 3) rfl).trans ?_
  refine (broadcastInDim_of_subsingleton _ _ _ _ ix0).trans ?_
  refine (addf_apply _ _ _).trans ?_
  congr 1
  · exact (shapeCast_of_subsingleton _ _ _ (ix1 (0 : Fin 1))).trans (slice_vec a3 0 _)
  · exact (shapeCast_of_subsingleton _ _ _ (ix1 (0 : Fin 1))).trans (slice_vec a4 0 _)

theorem b3vec_1 : b3vec a3 a4 (ix1 (1 : Fin 3)) = a3 (ix1 (1 : Fin 3)) + a4 (ix1 (1 : Fin 3)) := by
  unfold b3vec
  refine (concat3_vec_snd _ _ _ concatenates_S1_S1_S1_S3_d0 (0 : Fin 1) (1 : Fin 3) rfl).trans ?_
  refine (broadcastInDim_of_subsingleton _ _ _ _ ix0).trans ?_
  refine (addf_apply _ _ _).trans ?_
  congr 1
  · exact (shapeCast_of_subsingleton _ _ _ (ix1 (0 : Fin 1))).trans (slice_vec a3 1 _)
  · exact (shapeCast_of_subsingleton _ _ _ (ix1 (0 : Fin 1))).trans (slice_vec a4 1 _)

theorem b3vec_2 : b3vec a3 a4 (ix1 (2 : Fin 3)) = a3 (ix1 (2 : Fin 3)) := by
  unfold b3vec
  refine (concat3_vec_thd _ _ _ concatenates_S1_S1_S1_S3_d0 (0 : Fin 1) (2 : Fin 3) rfl).trans ?_
  refine (broadcastInDim_of_subsingleton _ _ _ _ ix0).trans ?_
  exact (shapeCast_of_subsingleton _ _ _ (ix1 (0 : Fin 1))).trans (slice_vec a3 2 _)

theorem whhn_at : whhn a2 (ix2 (0 : Fin 1) (0 : Fin 1)) = a2 (ix2 (2 : Fin 3) (0 : Fin 1)) :=
  slice2_axis0_apply 2 a2 _ (0 : Fin 1) (0 : Fin 1) (2 : Fin 3) rfl

theorem bhhn_at : bhhn a4 (ix2 (0 : Fin 1) (0 : Fin 1)) = a4 (ix1 (2 : Fin 3)) :=
  (shapeCast_of_subsingleton _ _ _ (ix1 (0 : Fin 1))).trans (slice_vec a4 2 _)

theorem bout_at : bout a6 (ix2 (0 : Fin 1) (0 : Fin 1)) = a6 (ix1 (0 : Fin 1)) :=
  shapeCast_of_subsingleton _ _ _ _

end Reads

end Cert.KernelIdeal.Pre

end
-- ==== Proof.Spec.lean ====
/-
  One step of a gated recurrent cell with hidden size one, followed by an affine read-out, on the extended reals.

  A row of the input carries the previous hidden value `h` in column 0 and the 64 features `x` in columns 1..64.  With
  `s j = Σ_k x_k · W_ih[j,k]` (j = 0, 1, 2 the reset, update and candidate gates) the reference computes
  `gi j = s j + b_ih[j]`, `gh j = h · W_hh[j] + b_hh[j]`, `r = σ(gi 0 + gh 0)`, `z = σ(gi 1 + gh 1)`,
  `n = tanh(gi 2 + r · gh 2)`, `h' = (1 − z) · n + z · h` and returns `h' · w_out + b_out`, where `σ(t) = 1 / (1 + e^(−t))`.
  The kernel contracts the whole 65-wide row with a 65 × 3 matrix whose first row is `(W_hh[0], W_hh[1], 0)` and whose
  other rows are the transpose of `W_ih`, adds the fused bias `(b_ih[0] + b_hh[0], b_ih[1] + b_hh[1], b_ih[2])`, and
  applies the same gates.  The two agree by splitting the first term off the 65-term sum, by commutativity and
  associativity of addition on the extended reals, and by `h · 0 = 0`; none of these needs finiteness.
-/
import Idealize.ShloMosaic.PureOps.Ideal
import Idealize.ShloMosaic.PureOps.Ideal.Laws
import Idealize.ShloMosaic.Lib.ValueIdx

noncomputable section

namespace Cert.Gru

open Idealize.ShloMosaic Idealize.ShloMosaic.ValueIdx

/-- The f32 word of `1.0` denotes the real number one. -/
theorem one_f32 : Ideal.ofBits .f32 0x3F800000#32 = 1 := by
  simp [Ideal.ofBits, Ideal.ieee, -EReal.coe_mul]; norm_num

/-- The logistic function in the reference's spelling, `1 / (1 + e^(−t))`. -/
def gate (t : EReal) : EReal := Ideal.div 1 (1 + Ideal.exp (-t))

theorem logistic_eq_gate (t : EReal) : Ideal.logistic t = gate t := rfl

/-- The cell in the reference's spelling: `s` the three feature sums, `whh bih bhh` the recurrent weights and the two
    bias vectors, `wo bo` the read-out. -/
def cell (h : EReal) (s whh bih bhh : Fin 3 → EReal) (wo bo : EReal) : EReal :=
  ((1 - gate ((s 1 + bih 1) + (h * whh 1 + bhh 1)))
      * Ideal.tanh ((s 2 + bih 2) + gate ((s 0 + bih 0) + (h * whh 0 + bhh 0)) * (h * whh 2 + bhh 2))
    + gate ((s 1 + bih 1) + (h * whh 1 + bhh 1)) * h) * wo + bo

/-- The cell in the kernel's spelling: `pre` the three fused pre-activations, `wn bn` the candidate gate's recurrent
    weight and bias. -/
def cellFused (h : EReal) (pre : Fin 3 → EReal) (wn bn wo bo : EReal) : EReal :=
  ((1 - Ideal.logistic (pre 1)) * Ideal.tanh (pre 2 + Ideal.logistic (pre 0) * (h * wn + bn))
    + Ideal.logistic (pre 1) * h) * wo + bo

/-- The fused pre-activations are the reference's `gi + gh` for the reset and update gates and `gi` alone for the
    candidate gate, so the two spellings of the cell agree. -/
theorem cellFused_eq_cell (h : EReal) (pre s whh bih bhh : Fin 3 → EReal) (wo bo : EReal)
    (h0 : pre 0 = (h * whh 0 + s 0) + (bih 0 + bhh 0))
    (h1 : pre 1 = (h * whh 1 + s 1) + (bih 1 + bhh 1))
    (h2 : pre 2 = (h * 0 + s 2) + bih 2) :
    cellFused h pre (whh 2) (bhh 2) wo bo = cell h s whh bih bhh wo bo := by
  have e0 : pre 0 = (s 0 + bih 0) + (h * whh 0 + bhh 0) := by
    rw [h0, add_comm (h * whh 0) (s 0), add_add_add_comm]
  have e1 : pre 1 = (s 1 + bih 1) + (h * whh 1 + bhh 1) := by
    rw [h1, add_comm (h * whh 1) (s 1), add_add_add_comm]
  have e2 : pre 2 = s 2 + bih 2 := by rw [h2, mul_zero, zero_add]
  unfold cellFused cell
  rw [e0, e1, e2, logistic_eq_gate, logistic_eq_gate]

/-- The result for batch entry `b` and position `n`: the cell of that row of the input, the previous hidden value in
    column 0 and the features in columns 1..64. -/
def rowOut (X : (⟨3, ![32768, 16, 65]⟩ : Shape).Idx → EReal) (Wih : (⟨2, ![3, 64]⟩ : Shape).Idx → EReal)
    (Whh : (⟨2, ![3, 1]⟩ : Shape).Idx → EReal) (bih bhh : (⟨1, ![3]⟩ : Shape).Idx → EReal)
    (wout : (⟨2, ![1, 1]⟩ : Shape).Idx → EReal) (bout : (⟨1, ![1]⟩ : Shape).Idx → EReal)
    (b : Fin 32768) (n : Fin 16) : EReal :=
  cell (X (ix3 b n (0 : Fin 65))) (fun j => ∑ k : Fin 64, X (ix3 b n k.succ) * Wih (ix2 j k))
    (fun j => Whh (ix2 j (0 : Fin 1))) (fun j => bih (ix1 j)) (fun j => bhh (ix1 j))
    (wout (ix2 (0 : Fin 1) (0 : Fin 1))) (bout (ix1 (0 : Fin 1)))

/-- The whole result array, index by index. -/
def G (X : (⟨3, ![32768, 16, 65]⟩ : Shape).Idx → EReal) (Wih : (⟨2, ![3, 64]⟩ : Shape).Idx → EReal)
    (Whh : (⟨2, ![3, 1]⟩ : Shape).Idx → EReal) (bih bhh : (⟨1, ![3]⟩ : Shape).Idx → EReal)
    (wout : (⟨2, ![1, 1]⟩ : Shape).Idx → EReal) (bout : (⟨1, ![1]⟩ : Shape).Idx → EReal) :
    (⟨3, ![32768, 16, 1]⟩ : Shape).Idx → EReal :=
  fun i => rowOut X Wih Whh bih bhh wout bout (i 0) (i 1)

/-- A sum over 65 terms is its first term plus the sum of the other 64. -/
theorem sum_split_first {M : Type*} [AddCommMonoid M] (f : Fin 65 → M) :
    ∑ k : Fin 65, f k = f 0 + ∑ k : Fin 64, f k.succ := Fin.sum_univ_succ f

/-- A sum over one term is the term. -/
theorem sum_one_term {M : Type*} [AddCommMonoid M] (f : Fin 1 → M) : ∑ k : Fin 1, f k = f 0 := by
  simp

end Cert.Gru

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.Payload.lean ====
/-
  The body's arithmetic at one row.

  The body's result is a vector of 8192 entries, one per row of its input block.  Entry `p` depends on row `p` of the
  input block only: the matrix product contracts row `p` with the 65 × 3 weight block, the bias row is added, the
  transposes and the row cuts move the three pre-activations of row `p` to lane `p`, and every other operation is
  lane by lane.  So entry `p` is the cell in the kernel's spelling, of the hidden value `v0[p, 0]`, the three
  pre-activations `Σ_k v0[p, k] · v3[k, j] + v6[0, j]`, and the four scalars.
-/
import proofs.«161490_j49933289783562_2_alg».proof.Proof.Gen.KernelIdeal.Skeleton
import proofs.«161490_j49933289783562_2_alg».proof.Proof.Spec
import proofs.«161490_j49933289783562_2_alg».proof.Proof.LibPlainDot
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Gru Cert.Lib

variable (p : Fin 8192)

theorem tanh_at {s : Shape} (x : FVec Ideal s .f32) (i : s.Idx) : tanh x i = Ideal.tanh (x i) := rfl
theorem logistic_at {s : Shape} (x : FVec Ideal s .f32) (i : s.Idx) : logistic x i = Ideal.logistic (x i) := rfl

/-- The word of `1.0` on the scalar unit is the real number one. -/
theorem scalar_one : (Scalar.ofBits .f32 0x3F800000#32 : Ideal .f32) = (1 : EReal) := one_f32

/-- The one entry of a `[1, 1]` array. -/
theorem extract_11 (v : FVec Ideal S1x1 .f32) (h : ∀ a, (![0, 0] : Fin 2 → Nat) a < S1x1.size a) :
    extractAt ![0, 0] v h = v (ix2 (0 : Fin 1) (0 : Fin 1)) :=
  congrArg v (funext fun a => match a with | ⟨0, _⟩ => rfl | ⟨1, _⟩ => rfl)

theorem cast_lanes (X : FVec Ideal S1x8192 .f32) (h : S1x8192.ShapeCasts S8192) :
    shapeCast S8192 X h (ix1 p) = X (ix2 (0 : Fin 1) p) := shapeCast_1a_a_apply X h p

theorem cut_r (X : FVec Ideal S2x8192 .f32) (h : S2x8192.Slices ![0, 0] S1x8192) :
    extractStridedSlice S1x8192 ![0, 0] X h (ix2 (0 : Fin 1) p) = X (ix2 (0 : Fin 2) p) :=
  slice2_axis0_apply 0 X h 0 p 0 rfl
theorem cut_z (X : FVec Ideal S2x8192 .f32) (h : S2x8192.Slices ![1, 0] S1x8192) :
    extractStridedSlice S1x8192 ![1, 0] X h (ix2 (0 : Fin 1) p) = X (ix2 (1 : Fin 2) p) :=
  slice2_axis0_apply 1 X h 0 p 1 rfl
theorem cut_n (X : FVec Ideal S3x8192 .f32) (h : S3x8192.Slices ![2, 0] S1x8192) :
    extractStridedSlice S1x8192 ![2, 0] X h (ix2 (0 : Fin 1) p) = X (ix2 (2 : Fin 3) p) :=
  slice2_axis0_apply 2 X h 0 p 2 rfl
theorem cut_rz0 (X : FVec Ideal S3x8192 .f32) (h : S3x8192.Slices ![0, 0] S2x8192) :
    extractStridedSlice S2x8192 ![0, 0] X h (ix2 (0 : Fin 2) p) = X (ix2 (0 : Fin 3) p) :=
  slice2_axis0_apply 0 X h 0 p 0 rfl
theorem cut_rz1 (X : FVec Ideal S3x8192 .f32) (h : S3x8192.Slices ![0, 0] S2x8192) :
    extractStridedSlice S2x8192 ![0, 0] X h (ix2 (1 : Fin 2) p) = X (ix2 (1 : Fin 3) p) :=
  slice2_axis0_apply 0 X h 1 p 1 rfl
theorem cut_h (X : FVec Ideal S8192x65 .f32) (h : S8192x65.Slices ![0, 0] S8192x1) :
    extractStridedSlice S8192x1 ![0, 0] X h (ix2 p (0 : Fin 1)) = X (ix2 p (0 : Fin 65)) :=
  slice2_axis1_apply 0 X h p 0 0 rfl
theorem flip3 (X : FVec Ideal S8192x3 .f32) (j : Fin 3) :
    transpose S3x8192 _ X transposes_S8192x3_p1_0_S3x8192 (ix2 j p) = X (ix2 p j) :=
  transpose_ix2_apply X transposes_S8192x3_p1_0_S3x8192 j p
theorem flip1 (X : FVec Ideal S8192x1 .f32) :
    transpose S1x8192 _ X transposes_S8192x1_p1_0_S1x8192 (ix2 (0 : Fin 1) p) = X (ix2 p (0 : Fin 1)) :=
  transpose_ix2_apply X transposes_S8192x1_p1_0_S1x8192 0 p
theorem bias_rows (v : FVec Ideal S1x3 .f32) (h : S1x3.Broadcasts S8192x3) (j : Fin 3) :
    broadcastTo S8192x3 v h (ix2 p j) = v (ix2 (0 : Fin 1) j) := broadcastTo_1b_ab_apply v h p j
theorem product_at (l : FVec Ideal S8192x65 .f32) (r : FVec Ideal S65x3 .f32) (j : Fin 3) :
    matmul dot_S8192x65_S65x3_S8192x3_1_0_0_1_n_n none l r (constant S8192x3 .f32 0x00000000#32) (ix2 p j)
      = ∑ k : Fin 65, l (ix2 p k) * r (ix2 k j) :=
  matmul_plain_zero_apply (M := 8192) (K := 65) (N := 3) none l r p j

theorem flip3_0 (X : FVec Ideal S8192x3 .f32) :
    transpose S3x8192 _ X transposes_S8192x3_p1_0_S3x8192 (ix2 (0 : Fin 3) p) = X (ix2 p (0 : Fin 3)) := flip3 p X 0
theorem flip3_1 (X : FVec Ideal S8192x3 .f32) :
    transpose S3x8192 _ X transposes_S8192x3_p1_0_S3x8192 (ix2 (1 : Fin 3) p) = X (ix2 p (1 : Fin 3)) := flip3 p X 1
theorem flip3_2 (X : FVec Ideal S8192x3 .f32) :
    transpose S3x8192 _ X transposes_S8192x3_p1_0_S3x8192 (ix2 (2 : Fin 3) p) = X (ix2 p (2 : Fin 3)) := flip3 p X 2
theorem bias_rows_0 (v : FVec Ideal S1x3 .f32) (h : S1x3.Broadcasts S8192x3) :
    broadcastTo S8192x3 v h (ix2 p (0 : Fin 3)) = v (ix2 (0 : Fin 1) (0 : Fin 3)) := bias_rows p v h 0
theorem bias_rows_1 (v : FVec Ideal S1x3 .f32) (h : S1x3.Broadcasts S8192x3) :
    broadcastTo S8192x3 v h (ix2 p (1 : Fin 3)) = v (ix2 (0 : Fin 1) (1 : Fin 3)) := bias_rows p v h 1
theorem bias_rows_2 (v : FVec Ideal S1x3 .f32) (h : S1x3.Broadcasts S8192x3) :
    broadcastTo S8192x3 v h (ix2 p (2 : Fin 3)) = v (ix2 (0 : Fin 1) (2 : Fin 3)) := bias_rows p v h 2
theorem product_at_0 (l : FVec Ideal S8192x65 .f32) (r : FVec Ideal S65x3 .f32) :
    matmul dot_S8192x65_S65x3_S8192x3_1_0_0_1_n_n none l r (constant S8192x3 .f32 0x00000000#32) (ix2 p (0 : Fin 3))
      = ∑ k : Fin 65, l (ix2 p k) * r (ix2 k (0 : Fin 3)) := product_at p l r 0
theorem product_at_1 (l : FVec Ideal S8192x65 .f32) (r : FVec Ideal S65x3 .f32) :
    matmul dot_S8192x65_S65x3_S8192x3_1_0_0_1_n_n none l r (constant S8192x3 .f32 0x00000000#32) (ix2 p (1 : Fin 3))
      = ∑ k : Fin 65, l (ix2 p k) * r (ix2 k (1 : Fin 3)) := product_at p l r 1
theorem product_at_2 (l : FVec Ideal S8192x65 .f32) (r : FVec Ideal S65x3 .f32) :
    matmul dot_S8192x65_S65x3_S8192x3_1_0_0_1_n_n none l r (constant S8192x3 .f32 0x00000000#32) (ix2 p (2 : Fin 3))
      = ∑ k : Fin 65, l (ix2 p k) * r (ix2 k (2 : Fin 3)) := product_at p l r 2

/-- Entry `p` of the body's result is the cell, in the kernel's spelling, of row `p` of the input block. -/
theorem pay_at (v0 : Vec Ideal S8192x65 .f32) (v3 : Vec Ideal S65x3 .f32) (v6 : Vec Ideal S1x3 .f32)
    (v12 v16 v33 v37 : Vec Ideal S1x1 .f32) :
    k0_pay1 v0 v3 v6 v12 v16 v33 v37 (ix1 p)
      = cellFused (v0 (ix2 p (0 : Fin 65)))
          (fun j => (∑ k : Fin 65, v0 (ix2 p k) * v3 (ix2 k j)) + v6 (ix2 (0 : Fin 1) j))
          (v12 (ix2 (0 : Fin 1) (0 : Fin 1))) (v16 (ix2 (0 : Fin 1) (0 : Fin 1)))
          (v33 (ix2 (0 : Fin 1) (0 : Fin 1))) (v37 (ix2 (0 : Fin 1) (0 : Fin 1))) := by
  unfold k0_pay1
  simp only [shapeCast_self]
  rw [cast_lanes]
  simp only [addf_apply, mulf_apply, subf_apply, broadcast_apply, tanh_at, logistic_at, cut_r, cut_z, cut_n,
    cut_rz0, cut_rz1, extract_11, scalar_one]
  rw [flip3 p _ 0, flip3 p _ 1, flip3 p _ 2, flip1 p]
  simp only [addf_apply, cut_h, bias_rows_0, bias_rows_1, bias_rows_2, product_at_0, product_at_1, product_at_2]
  rfl

end Cert.KernelIdeal.Payload

end
-- ==== Proof.KernelValue.lean ====
/-
  What the idealized kernel's program leaves in its result array.

  Grid point `t` stages rows `8192 t .. 8192 t + 8191` of the flattened input (the other six operands are whole arrays,
  staged once) and writes back entries `8192 t .. 8192 t + 8191` of the flat result.  Entry `p` of that block is the cell,
  in the kernel's spelling, of row `8192 t + p`; with the host-built weight matrix and bias row it is the cell in the
  reference's spelling of entry `(r / 16, r % 16)` of the input, `r = 8192 t + p`.  The 64 blocks tile the flat result,
  and the last host operation reshapes it to `[32768, 16, 1]`, entry `(b, n, 0)` being flat entry `16 b + n`.
-/
import proofs.«161490_j49933289783562_2_alg».proof.Proof.KernelIdealFrame
import proofs.«161490_j49933289783562_2_alg».proof.Proof.Prefix
import proofs.«161490_j49933289783562_2_alg».proof.Proof.Payload
import proofs.«161490_j49933289783562_2_alg».proof.Proof.Spec
import Idealize.ShloMosaic.Lib.Pipeline.Value

set_option maxRecDepth 16384

noncomputable section

namespace Cert.KernelIdeal.KValue

open Cert.KernelIdeal Cert.KernelIdeal.Gen Cert.KernelIdeal.Frm Cert.KernelIdeal.Pre Cert.KernelIdeal.Payload
open Idealize.ShloMosaic Idealize.ShloMosaic.TcCoe Idealize.ShloMosaic.ValueIdx Idealize.ShloMosaic.StableHlo
open Idealize.SL.Sem Cert.Gru Cert.Lib
open Idealize.ShloMosaic.Pipeline (Dat)

/-- The result for flat row `r`: the cell of entry `(r / 16, r % 16)`. -/
def rowOutFlat (X : FVec Ideal S32768x16x65 .f32) (Wih : FVec Ideal S3x64 .f32) (Whh : FVec Ideal S3x1 .f32)
    (bih bhh : FVec Ideal S3 .f32) (wout : FVec Ideal S1x1 .f32) (bo : FVec Ideal S1 .f32) (r : Fin 524288) : EReal :=
  rowOut X Wih Whh bih bhh wout bo (⟨r.val / 16, by have := r.isLt; omega⟩ : Fin 32768) (⟨r.val % 16, by omega⟩ : Fin 16)

/-- The flat result array. -/
def Gflat (X : FVec Ideal S32768x16x65 .f32) (Wih : FVec Ideal S3x64 .f32) (Whh : FVec Ideal S3x1 .f32)
    (bih bhh : FVec Ideal S3 .f32) (wout : FVec Ideal S1x1 .f32) (bo : FVec Ideal S1 .f32) : FVec Ideal S524288 .f32 :=
  fun i => rowOutFlat X Wih Whh bih bhh wout bo (i 0)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The block index maps over the grid: the input rows and the result move with the point, the other operands stay. -/
theorem idx_facts : ∀ t : Fin cfg0.N,
    win0_7.index t (0 : Fin 1) = t.val ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The flat row that entry `p` of point `t`'s block is. -/
def gRow (t : Fin cfg0.N) (p : Fin 8192) : Fin 524288 :=
  ⟨t.val * 8192 + p.val, by have h : t.val < 64 := lt_of_lt_of_eq t.isLt N_0; have := p.isLt; omega⟩

/-! ## The operands' blocks, read where the body reads them -/

theorem blk0_at (c : Dev nD) (t : Fin cfg0.N) (p : Fin 8192) (k : Fin 65) :
    iblk m c 0 t (ix2 p k) = V m c main_v0 (ix2 (gRow t p) k) := by
  obtain ⟨_, e0, e1, _⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 8192 + 1 * p.val = t.val * 8192 + p.val; omega
  | ⟨1, _⟩ => show win0_0.index t (1 : Fin 2) * 65 + 1 * k.val = k.val; omega

theorem blk1_at (c : Dev nD) (t : Fin cfg0.N) (y : S65x3.Idx) : iblk m c 1 t y = V m c main_v11 y := by
  obtain ⟨_, _, _, e0, e1, _⟩ := idx_facts t
  show V m c main_v11 (((cfg0.win 1).blk t).view.emb y) = _
  refine congrArg (V m c main_v11) (funext fun a => Fin.ext ?_)
  match a with
  | ⟨0, _⟩ => show win0_1.index t (0 : Fin 2) * 65 + 1 * (y 0).val = (y 0).val; omega
  | ⟨1, _⟩ => show win0_1.index t (1 : Fin 2) * 3 + 1 * (y 1).val = (y 1).val; omega

theorem blk2_at (c : Dev nD) (t : Fin cfg0.N) (y : S1x3.Idx) : iblk m c 2 t y = V m c main_v28 y := by
  obtain ⟨_, _, _, _, _, e0, e1, _⟩ := idx_facts t
  show V m c main_v28 (((cfg0.win 2).blk t).view.emb y) = _
  refine congrArg (V m c main_v28) (funext fun a => Fin.ext ?_)
  match a with
  | ⟨0, _⟩ => show win0_2.index t (0 : Fin 2) * 1 + 1 * (y 0).val = (y 0).val; omega
  | ⟨1, _⟩ => show win0_2.index t (1 : Fin 2) * 3 + 1 * (y 1).val = (y 1).val; omega

theorem blk3_at (c : Dev nD) (t : Fin cfg0.N) (y : S1x1.Idx) : iblk m c 3 t y = V m c main_v29 y := by
  obtain ⟨_, _, _, _, _, _, _, e0, e1, _⟩ := idx_facts t
  show V m c main_v29 (((cfg0.win 3).blk t).view.emb y) = _
  refine congrArg (V m c main_v29) (funext fun a => Fin.ext ?_)
  match a with
  | ⟨0, _⟩ => show win0_3.index t (0 : Fin 2) * 1 + 1 * (y 0).val = (y 0).val; omega
  | ⟨1, _⟩ => show win0_3.index t (1 : Fin 2) * 1 + 1 * (y 1).val = (y 1).val; omega

theorem blk4_at (c : Dev nD) (t : Fin cfg0.N) (y : S1x1.Idx) : iblk m c 4 t y = V m c main_v31 y := by
  obtain ⟨_, _, _, _, _, _, _, _, _, e0, e1, _⟩ := idx_facts t
  show V m c main_v31 (((cfg0.win 4).blk t).view.emb y) = _
  refine congrArg (V m c main_v31) (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

theorem blk5_at (c : Dev nD) (t : Fin cfg0.N) (y : S1x1.Idx) : iblk m c 5 t y = V m c main_arg5 y := by
  obtain ⟨_, _, _, _, _, _, _, _, _, _, _, e0, e1, _⟩ := idx_facts t
  show V m c main_arg5 (((cfg0.win 5).blk t).view.emb y) = _
  refine congrArg (V m c main_arg5) (funext fun a => Fin.ext ?_)
  match a with
  | ⟨0, _⟩ => show win0_5.index t (0 : Fin 2) * 1 + 1 * (y 0).val = (y 0).val; omega
  | ⟨1, _⟩ => show win0_5.index t (1 : Fin 2) * 1 + 1 * (y 1).val = (y 1).val; omega

theorem blk6_at (c : Dev nD) (t : Fin cfg0.N) (y : S1x1.Idx) : iblk m c 6 t y = V m c main_v32 y := by
  obtain ⟨_, _, _, _, _, _, _, _, _, _, _, _, _, e0, e1⟩ := idx_facts t
  show V m c main_v32 (((cfg0.win 6).blk t).view.emb y) = _
  refine congrArg (V m c main_v32) (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-! ## One entry of one block -/

/-- With the host-built weight matrix and bias row, the fused pre-activation of gate `j` is the reference's. -/
theorem pre_split (x : FVec Ideal S32768x16x65 .f32) (a1 : FVec Ideal S3x64 .f32) (a2 : FVec Ideal S3x1 .f32)
    (b : Fin 32768) (n : Fin 16) (j : Fin 3) :
    ∑ k : Fin 65, x (ix3 b n k) * w65 a1 a2 (ix2 k j)
      = x (ix3 b n (0 : Fin 65)) * w0vec a2 (ix1 j) + ∑ k : Fin 64, x (ix3 b n k.succ) * a1 (ix2 j k) := by
  rw [sum_split_first, w65_row0]
  simp only [w65_succ]

/-- Entry `p` of point `t`'s block is the cell of flat row `8192 t + p`: for any seven blocks that read the launch's
    arrays as the windows place them. -/
theorem row_eq (c : Dev nD) (t : Fin cfg0.N) (p : Fin 8192)
    (B0 : Vec Ideal S8192x65 .f32) (B1 : Vec Ideal S65x3 .f32) (B2 : Vec Ideal S1x3 .f32) (B3 B4 B5 B6 : Vec Ideal S1x1 .f32)
    (h0 : ∀ k : Fin 65, B0 (ix2 p k) = V m c main_v0 (ix2 (gRow t p) k))
    (h1 : ∀ y, B1 y = V m c main_v11 y) (h2 : ∀ y, B2 y = V m c main_v28 y) (h3 : ∀ y, B3 y = V m c main_v29 y)
    (h4 : ∀ y, B4 y = V m c main_v31 y) (h5 : ∀ y, B5 y = V m c main_arg5 y) (h6 : ∀ y, B6 y = V m c main_v32 y) :
    cellFused (B0 (ix2 p (0 : Fin 65)))
        (fun j => (∑ k : Fin 65, B0 (ix2 p k) * B1 (ix2 k j)) + B2 (ix2 (0 : Fin 1) j))
        (B3 (ix2 (0 : Fin 1) (0 : Fin 1))) (B4 (ix2 (0 : Fin 1) (0 : Fin 1)))
        (B5 (ix2 (0 : Fin 1) (0 : Fin 1))) (B6 (ix2 (0 : Fin 1) (0 : Fin 1)))
      = rowOutFlat (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (gRow t p) := by
  simp only [h0, h1, h2, h3, h4, h5, h6]
  rw [V_v0, V_v11, V_v28, V_v29, V_v31, V_main_arg5, V_v32]
  simp only [rows_at, whhn_at, bhhn_at, bout_at]
  unfold rowOutFlat rowOut
  refine cellFused_eq_cell _ _ _ (fun j => m ((c : Thread nD τ).loc main_arg2) (ix2 j (0 : Fin 1)))
    (fun j => m ((c : Thread nD τ).loc main_arg3) (ix1 j)) (fun j => m ((c : Thread nD τ).loc main_arg4) (ix1 j)) _ _ ?_ ?_ ?_
  · rw [pre_split, w0vec_0, bias3_at, b3vec_0]
  · rw [pre_split, w0vec_1, bias3_at, b3vec_1]
  · rw [pre_split, w0vec_2, bias3_at, b3vec_2]

/-! ## From blocks to the array -/

set_option maxHeartbeats 1000000 in
/-- What point `t` writes back is block `t` of the flat result. -/
theorem flushed_eq (c : Dev nD) (t : Fin cfg0.N) :
    (dats m 0 c).flushed 7 t = ((cfg0.win 7).blk t).view.read (Elt Ideal)
      (Gflat (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) := by
  show (cfg0.win 7).cut (grid0.coords t) ((dats m 0 c).after 7 t) = _
  rw [after0_7]
  unfold out0_7
  rw [View.canon_unit_zero hz1]
  simp only [View.ld_unit_zero (S := S8192x65) hz2, View.ld_unit_zero (S := S65x3) hz2,
    View.ld_unit_zero (S := S1x3) hz2, View.ld_unit_zero (S := S1x1) hz2]
  funext j
  obtain ⟨p, rfl⟩ : ∃ p : Fin 8192, j = ix1 p := ⟨j 0, eq_ix1 j⟩
  show k0_pay1 (iblk m c 0 t) (iblk m c 1 t) (iblk m c 2 t) (iblk m c 3 t) (iblk m c 4 t) (iblk m c 5 t) (iblk m c 6 t) (ix1 p)
    = Gflat _ _ _ _ _ _ _ (((cfg0.win 7).blk t).view.emb (ix1 p))
  refine (pay_at p (iblk m c 0 t) (iblk m c 1 t) (iblk m c 2 t) (iblk m c 3 t) (iblk m c 4 t) (iblk m c 5 t) (iblk m c 6 t)).trans ?_
  have eo : ((cfg0.win 7).blk t).view.emb (ix1 p) = ix1 (gRow t p) := by
    obtain ⟨e7, _⟩ := idx_facts t
    funext a; apply Fin.ext
    match a with
    | ⟨0, _⟩ => show win0_7.index t (0 : Fin 1) * 8192 + 1 * p.val = t.val * 8192 + p.val; omega
  rw [eo]
  exact row_eq m c t p (iblk m c 0 t) (iblk m c 1 t) (iblk m c 2 t) (iblk m c 3 t) (iblk m c 4 t) (iblk m c 5 t) (iblk m c 6 t)
    (blk0_at m c t p) (blk1_at m c t) (blk2_at m c t) (blk3_at m c t) (blk4_at m c t) (blk5_at m c t) (blk6_at m c t)

/-- An index of the flat result is in point `t`'s block iff it is in the block's range. -/
theorem mem_blk (t : Fin cfg0.N) (i : S524288.Idx) :
    i ∈ ((cfg0.win 7).blk t).view.set ↔ ∀ a : Fin 1, win0_7.index t a * S8192.size a ≤ (i a).val
      ∧ (i a).val < win0_7.index t a * S8192.size a + S8192.size a := by
  show i ∈ ((View.whole main_v33).slice (win0_7.rect t)).set ↔ _
  rw [View.set_slice_whole, Rect.mem_set_unit]
  exact Iff.rfl

/-- Every index of the flat result is in the block of the point `i / 8192`. -/
theorem cover (i : S524288.Idx) :
    ∃ t : Fin cfg0.N, (cfg0.win 7).flush t = true ∧ i ∈ ((cfg0.win 7).blk t).view.set := by
  have hi : (i 0).val < 524288 := (i 0).isLt
  have ht : (i 0).val / 8192 < cfg0.N := lt_of_lt_of_eq (by omega : (i 0).val / 8192 < 64) N_0.symm
  refine ⟨⟨(i 0).val / 8192, ht⟩, flush0_7 _, ?_⟩
  rw [mem_blk]
  intro a
  obtain ⟨e7, _⟩ := idx_facts ⟨(i 0).val / 8192, ht⟩
  match a with
  | ⟨0, _⟩ =>
    show win0_7.index ⟨(i 0).val / 8192, ht⟩ (0 : Fin 1) * 8192 ≤ (i 0).val
      ∧ (i 0).val < win0_7.index ⟨(i 0).val / 8192, ht⟩ (0 : Fin 1) * 8192 + 8192
    rw [e7]
    show (i 0).val / 8192 * 8192 ≤ (i 0).val ∧ (i 0).val < (i 0).val / 8192 * 8192 + 8192
    omega

/-- The flat result array after the launch. -/
theorem final (c : Dev nD) :
    (dats m 0 c).arrAt 7 cfg0.N
      = Gflat (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  (dats m 0 c).arrAt_eq_of_cover 7 _ (fun t _ => flushed_eq m c t) cover

/-! ## The last host operation and the run -/

/-- The program's result: the flat result reshaped, entry `(b, n, 0)` being flat entry `16 b + n`. -/
theorem result_eq (c : Dev nD) :
    Pipeline.afterTail₀ cfgs (dats m) 0 (V0 m) [hostOps1] c main_v34
      = G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have hw := (Pipeline.withArrays_arr spec0 launch0.win.arr_inj c (V0 m c) (fun w => (dats m 0 c).arrAt w cfg0.N) 7).trans (final m c)
  unfold Pipeline.afterTail₀
  show StableHlo.after hostOps1 _ (Proc.devRef .tc main_v34) = _
  simp only [StableHlo.after_cons, StableHlo.after_nil]
  rw [StableHlo.reshape_result]
  funext i
  obtain ⟨b, n, u, rfl⟩ : ∃ (b : Fin 32768) (n : Fin 16) (u : Fin 1), i = ix3 b n u := ⟨i 0, i 1, i 2, eq_ix3 i⟩
  show shapeCast S32768x16x1 (Pipeline.withArrays spec0 c (V0 m c) (fun w => (dats m 0 c).arrAt w cfg0.N)
      (Proc.devRef .tc main_v33)) shapeCasts_S524288_S32768x16x1 (ix3 b n u) = _
  refine (congrFun (congrArg (fun f => shapeCast S32768x16x1 f shapeCasts_S524288_S32768x16x1) hw) (ix3 b n u)).trans ?_
  have hb : b.val * 16 + n.val < 524288 := by have := b.isLt; have := n.isLt; omega
  refine (shapeCast_apply _ shapeCasts_S524288_S32768x16x1 (ix3 b n u) (ix1 (⟨b.val * 16 + n.val, hb⟩ : Fin 524288)) ?_).trans ?_
  · rw [Shape.rowMajor_val_three, Shape.rowMajor_val_one]
    show b.val * 16 + n.val = (b.val * 16 + n.val) * 1 + u.val
    have := u.isLt; omega
  · show rowOut _ _ _ _ _ _ _ (⟨(b.val * 16 + n.val) / 16, _⟩ : Fin 32768) (⟨(b.val * 16 + n.val) % 16, _⟩ : Fin 16)
      = rowOut _ _ _ _ _ _ _ b n
    have e1 : (⟨(b.val * 16 + n.val) / 16, by omega⟩ : Fin 32768) = b := Fin.ext (by show (b.val * 16 + n.val) / 16 = b.val; have := n.isLt; omega)
    have e2 : (⟨(b.val * 16 + n.val) % 16, by omega⟩ : Fin 16) = n := Fin.ext (by show (b.val * 16 + n.val) % 16 = n.val; have := n.isLt; omega)
    rw [e1, e2]

/-- Every execution of the idealized kernel's program terminates with the result array at `G` of the argument arrays
    and the argument arrays as given. -/
theorem run : θ_run defs (onTc (τ := τ) (main (F := Ideal))) ⟨m, fun _ => 0, ρ⟩ (fun r => ∀ c : Dev nD,
      r.2.mem ((c.tc : Thread nD τ).loc main_v34)
        = G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v34 (Pipeline.mem_restRefs_of main_v34 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference, read one operation at a time, computes the cell of every row.

  Row `r = 16 b + n` of the flattened input is batch entry `b`, position `n`.  The two matrix products of the reference
  read at `(r, j)` are the feature sum `Σ_k x[b,n,k+1] · W_ih[j,k]` and the one-term sum `h · W_hh[j,0]`; every other
  operation is pointwise in the row, a column cut, or a broadcast of a scalar, so the chain of operations read at row `r`
  is the cell in the reference's spelling, and the final reshape puts row `r` at `(b, n, 0)`.
-/
import proofs.«161490_j49933289783562_2_alg».proof.Proof.Gen.ReferenceIdeal.Read
import proofs.«161490_j49933289783562_2_alg».proof.Proof.Spec
import proofs.«161490_j49933289783562_2_alg».proof.Proof.LibUnitShapes

noncomputable section

namespace Cert.ReferenceIdeal.RefValue

open Cert.ReferenceIdeal Cert.ReferenceIdeal.Read Idealize.ShloMosaic Idealize.ShloMosaic.ValueIdx Cert.Gru Cert.Lib

variable (x0 : (⟨S32768x16x65, .f32⟩ : BufTy).Contents (Elt Ideal)) (x1 : (⟨S3x64, .f32⟩ : BufTy).Contents (Elt Ideal))
  (x2 : (⟨S3x1, .f32⟩ : BufTy).Contents (Elt Ideal)) (x3 x4 : (⟨S3, .f32⟩ : BufTy).Contents (Elt Ideal))
  (x5 : (⟨S1x1, .f32⟩ : BufTy).Contents (Elt Ideal)) (x6 : (⟨S1, .f32⟩ : BufTy).Contents (Elt Ideal))

/-- The flattened row of batch entry `b`, position `n`. -/
abbrev row (b : Fin 32768) (n : Fin 16) : Fin 524288 := ⟨b.val * 16 + n.val, by have := b.isLt; have := n.isLt; omega⟩

/-- Column 0 of the flattened input at row `16 b + n` is the previous hidden value of `(b, n)`. -/
theorem h_at (b : Fin 32768) (n : Fin 16) :
    val_main_v3 (F := Ideal) x0 (ix2 (row b n) (0 : Fin 1)) = x0 (ix3 b n (0 : Fin 65)) := by
  rw [val_main_v3_apply, val_main_v2_apply]
  refine congrArg x0 (funext fun a => ?_)
  match a with
  | ⟨0, _⟩ => exact Fin.ext (by show ((b.val * 16 + n.val) * 1 + 0) / 16 = b.val; omega)
  | ⟨1, _⟩ => exact Fin.ext (by show ((b.val * 16 + n.val) * 1 + 0) / 1 % 16 = n.val; omega)
  | ⟨2, _⟩ => rfl

/-- The input-side pre-activation of gate `j` at row `16 b + n`. -/
theorem gi_at (b : Fin 32768) (n : Fin 16) (j : Fin 3) :
    val_main_v8 (F := Ideal) x0 x1 x3 (ix2 (row b n) j)
      = (∑ k : Fin 64, x0 (ix3 b n k.succ) * x1 (ix2 j k)) + x3 (ix1 j) := by
  rw [val_main_v8_apply, val_main_v5_apply, val_main_v7_apply, val_main_v6_apply, Ideal.addf_def]
  congr 1
  · refine Finset.sum_congr rfl fun k _ => ?_
    rw [val_main_v1_apply, val_main_v0_apply, val_main_v4_apply]
    congr 1
    · refine congrArg x0 (funext fun a => ?_)
      match a with
      | ⟨0, _⟩ => exact Fin.ext (by show ((b.val * 16 + n.val) * 64 + k.val) / 1024 = b.val; have := k.isLt; omega)
      | ⟨1, _⟩ => exact Fin.ext (by show ((b.val * 16 + n.val) * 64 + k.val) / 64 % 16 = n.val; have := k.isLt; have := n.isLt; omega)
      | ⟨2, _⟩ => exact Fin.ext (by show 1 + ((b.val * 16 + n.val) * 64 + k.val) % 64 = k.val + 1; have := k.isLt; omega)
    · refine congrArg x1 (funext fun a => ?_)
      match a with
      | ⟨0, _⟩ => rfl
      | ⟨1, _⟩ => rfl
  · refine congrArg x3 (funext fun a => ?_)
    match a with
    | ⟨0, _⟩ => rfl

/-- The hidden-side pre-activation of gate `j` at row `16 b + n`. -/
theorem gh_at (b : Fin 32768) (n : Fin 16) (j : Fin 3) :
    val_main_v13 (F := Ideal) x0 x2 x4 (ix2 (row b n) j)
      = x0 (ix3 b n (0 : Fin 65)) * x2 (ix2 j (0 : Fin 1)) + x4 (ix1 j) := by
  rw [val_main_v13_apply, val_main_v10_apply, val_main_v12_apply, val_main_v11_apply, Ideal.addf_def, sum_one_term,
    val_main_v9_apply]
  congr 1
  · congr 1
    · have e : lidx_main_v10 (ix2 (row b n) j) (0 : Fin 1) = ix2 (row b n) (0 : Fin 1) :=
        funext fun a => match a with | ⟨0, _⟩ => rfl | ⟨1, _⟩ => rfl
      rw [e, h_at]
    · refine congrArg x2 (funext fun a => ?_)
      match a with
      | ⟨0, _⟩ => rfl
      | ⟨1, _⟩ => rfl
  · refine congrArg x4 (funext fun a => ?_)
    match a with
    | ⟨0, _⟩ => rfl

/-- The scalar read-out weight, broadcast over the rows. -/
theorem wo_at (i : S524288x1.Idx) : val_main_v43 (F := Ideal) x5 i = x5 (ix2 (0 : Fin 1) (0 : Fin 1)) := by
  rw [val_main_v43_apply]; unfold val_main_v42
  exact shapeCast_of_subsingleton _ _ _ _

/-- The scalar read-out bias, broadcast over the rows. -/
theorem bo_at (i : S524288x1.Idx) : val_main_v46 (F := Ideal) x6 i = x6 (ix1 (0 : Fin 1)) := by
  rw [val_main_v46_apply]; unfold val_main_v45
  exact shapeCast_of_subsingleton _ _ _ _

/-- The chain of operations read at row `16 b + n` is the cell of `(b, n)`. -/
theorem out_at (b : Fin 32768) (n : Fin 16) :
    val_main_v47 (F := Ideal) x0 x1 x2 x3 x4 x5 x6 (ix2 (row b n) (0 : Fin 1))
      = rowOut x0 x1 x2 x3 x4 x5 x6 b n := by
  have c0 : idx_main_v14 (ix2 (row b n) (0 : Fin 1)) = ix2 (row b n) (0 : Fin 3) :=
    funext fun a => match a with | ⟨0, _⟩ => rfl | ⟨1, _⟩ => rfl
  have c0' : idx_main_v15 (ix2 (row b n) (0 : Fin 1)) = ix2 (row b n) (0 : Fin 3) :=
    funext fun a => match a with | ⟨0, _⟩ => rfl | ⟨1, _⟩ => rfl
  have c1 : idx_main_v23 (ix2 (row b n) (0 : Fin 1)) = ix2 (row b n) (1 : Fin 3) :=
    funext fun a => match a with | ⟨0, _⟩ => rfl | ⟨1, _⟩ => rfl
  have c1' : idx_main_v24 (ix2 (row b n) (0 : Fin 1)) = ix2 (row b n) (1 : Fin 3) :=
    funext fun a => match a with | ⟨0, _⟩ => rfl | ⟨1, _⟩ => rfl
  have c2 : idx_main_v32 (ix2 (row b n) (0 : Fin 1)) = ix2 (row b n) (2 : Fin 3) :=
    funext fun a => match a with | ⟨0, _⟩ => rfl | ⟨1, _⟩ => rfl
  have c2' : idx_main_v33 (ix2 (row b n) (0 : Fin 1)) = ix2 (row b n) (2 : Fin 3) :=
    funext fun a => match a with | ⟨0, _⟩ => rfl | ⟨1, _⟩ => rfl
  simp only [val_main_v47_apply, val_main_v44_apply, val_main_v41_apply, val_main_v40_apply, val_main_v39_apply,
    val_main_v38_apply, val_main_v37_apply, val_main_v36_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_cst_apply, val_main_cst_0_apply, val_main_cst_1_apply, val_main_cst_2_apply, val_main_cst_3_apply,
    c0, c0', c1, c1', c2, c2', gi_at, gh_at, h_at, wo_at, bo_at,
    Ideal.addf_def, Ideal.subf_def, Ideal.mulf_def, Ideal.hostDivf_def, Ideal.hostNegf_def, Ideal.negf_def,
    Ideal.hostUnary_exp_def, Ideal.hostUnary_tanh_def, Ideal.ofBits_def, one_f32]
  rfl

/-- The reference's result array is `G` of the argument arrays. -/
theorem ref_eq : val_main_v48 (F := Ideal) x0 x1 x2 x3 x4 x5 x6 = G x0 x1 x2 x3 x4 x5 x6 := by
  funext i
  obtain ⟨b, n, u, rfl⟩ : ∃ (b : Fin 32768) (n : Fin 16) (u : Fin 1), i = ix3 b n u := ⟨i 0, i 1, i 2, eq_ix3 i⟩
  rw [val_main_v48_apply]
  have e : idx_main_v48 (ix3 b n u) = ix2 (row b n) (0 : Fin 1) := funext fun a => match a with
    | ⟨0, _⟩ => Fin.ext (by show ((b.val * 16 + n.val) * 1 + u.val) / 1 = b.val * 16 + n.val; have := u.isLt; omega)
    | ⟨1, _⟩ => rfl
  rw [e, out_at]
  rfl

end Cert.ReferenceIdeal.RefValue

end
-- ==== Proof.lean ====
/-
  The claim: the kernel's program and its idealization run to the end without a fault and leave their seven argument
  arrays as given; so does the reference; the idealization rewrote nothing; and, read over the extended reals from
  memories that agree on the arguments, the idealized kernel and the idealized reference end with equal results.

  The result of both is one function `G` of the argument arrays: entry `(b, n, 0)` is one step of a gated recurrent cell
  with hidden size one on row `(b, n)` of the input, followed by an affine read-out.  The kernel computes it block by
  block of 8192 rows from a fused 65 × 3 weight matrix and a fused bias built on the host; the reference computes it
  with two matrix products.  The two spellings agree by splitting one term off a finite sum and by commutativity and
  associativity of addition on the extended reals, so the precondition is not used.
-/
import proofs.«161490_j49933289783562_2_alg».proof.Defs
import proofs.«161490_j49933289783562_2_alg».proof.Proof.Gen.Kernel
import proofs.«161490_j49933289783562_2_alg».proof.Proof.Gen.KernelIdeal
import proofs.«161490_j49933289783562_2_alg».proof.Proof.Gen.ReferenceIdeal
import proofs.«161490_j49933289783562_2_alg».proof.Proof.Gen.Pre_finite_inputs
import proofs.«161490_j49933289783562_2_alg».proof.Proof.Gen.ReferenceIdeal.Run
import proofs.«161490_j49933289783562_2_alg».proof.Proof.Gen.ReferenceIdeal.Read
import proofs.«161490_j49933289783562_2_alg».proof.Proof.KernelFrame
import proofs.«161490_j49933289783562_2_alg».proof.Proof.KernelIdealFrame
import proofs.«161490_j49933289783562_2_alg».proof.Proof.KernelValue
import proofs.«161490_j49933289783562_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `G` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
